-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S8x1600000 : Shape := ⟨2, ![8, 1600000]⟩
abbrev S8x128x128 : Shape := ⟨3, ![8, 128, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8x1600000 : S_.BroadcastsInDim S8x1600000 (![] : Fin 0 → Fin S8x1600000.rank)
  reducesTo_S8x1600000_S_d0_1 : S8x1600000.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S8x1600000 .f32) (main_arg2 : FVec F S8x128x128 .f32) (main_arg3 : FVec F S128x128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8x1600000 .f32 := Host.absf main_arg1
  let main_cst_0 : FVec F S_ .f32 := constant S_ .f32 0x7F800000#32
  let main_v5 : FVec F S8x1600000 .f32 := broadcastInDim S8x1600000 ![] bcast_S_S8x1600000 main_cst_0
  let main_v6 : IVec S8x1600000 1 := cmpf .olt main_v4 main_v5
  let main_c_1 : IVec S_ 1 := constantI S_ 1 1#1
  let main_v7 : IVec S_ 1 := (fun x v => Host.reduce IntOp.andi x v reducesTo_S8x1600000_S_d0_1 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S8x1600000 : Shape := ⟨2, ![8, 1600000]⟩
abbrev S8x128x128 : Shape := ⟨3, ![8, 128, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x1600000 : Shape := ⟨2, ![1, 1600000]⟩
abbrev S1x100000x128 : Shape := ⟨3, ![1, 100000, 128]⟩
abbrev S8x100000x128 : Shape := ⟨3, ![8, 100000, 128]⟩
abbrev S1x128 : Shape := ⟨2, ![1, 128]⟩
abbrev S2000x128 : Shape := ⟨2, ![2000, 128]⟩
abbrev S8x2000x128 : Shape := ⟨3, ![8, 2000, 128]⟩
abbrev S1x2000x128 : Shape := ⟨3, ![1, 2000, 128]⟩
abbrev S1x128x128 : Shape := ⟨3, ![1, 128, 128]⟩

abbrev nBuf : Space → Nat
  | .hbm => 135
  | .vmem => 9
  | .smem => 0
  | _ => 0

abbrev hbmTy0_0 (i : Nat) : BufTy := match i % 128 with
  | 0 => ⟨S100000x128, .f32⟩
  | 1 => ⟨S8x1600000, .f32⟩
  | 2 => ⟨S8x128x128, .f32⟩
  | 3 => ⟨S128x128, .f32⟩
  | 4 => ⟨S128, .f32⟩
  | 5 => ⟨S1600000, .i32⟩
  | 6 => ⟨S1600000, .i32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .i1⟩
  | 16 => ⟨S_, .f32⟩
  | 17 => ⟨S100000, .f32⟩
  | 18 => ⟨S100000, .f32⟩
  | 19 => ⟨S_, .f32⟩
  | 20 => ⟨S100000, .f32⟩
  | 21 => ⟨S100000, .f32⟩
  | 22 => ⟨S_, .f32⟩
  | 23 => ⟨S_, .f32⟩
  | 24 => ⟨S100000, .f32⟩
  | 25 => ⟨S100000, .f32⟩
  | 26 => ⟨S100000x1, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S1x1600000, .f32⟩
  | 37 => ⟨S1600000, .f32⟩
  | 38 => ⟨S1600000x1, .f32⟩
  | 39 => ⟨S1600000x128, .f32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S100000x128, .f32⟩
  | 46 => ⟨S100000x128, .f32⟩
  | 47 => ⟨S1x1600000, .f32⟩
  | 48 => ⟨S1600000, .f32⟩
  | 49 => ⟨S1600000x1, .f32⟩
  | 50 => ⟨S1600000x128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000x128, .f32⟩
  | 57 => ⟨S100000x128, .f32⟩
  | 58 => ⟨S1x1600000, .f32⟩
  | 59 => ⟨S1600000, .f32⟩
  | 60 => ⟨S1600000x1, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x128, .f32⟩
  | 68 => ⟨S100000x128, .f32⟩
  | 69 => ⟨S1x1600000, .f32⟩
  | 70 => ⟨S1600000, .f32⟩
  | 71 => ⟨S1600000x1, .f32⟩
  | 72 => ⟨S1600000x128, .f32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x128, .f32⟩
  | 79 => ⟨S100000x128, .f32⟩
  | 80 => ⟨S1x1600000, .f32⟩
  | 81 => ⟨S1600000, .f32⟩
  | 82 => ⟨S1600000x1, .f32⟩
  | 83 => ⟨S1600000x128, .f32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x128, .f32⟩
  | 90 => ⟨S100000x128, .f32⟩
  | 91 => ⟨S1x1600000, .f32⟩
  | 92 => ⟨S1600000, .f32⟩
  | 93 => ⟨S1600000x1, .f32⟩
  | 94 => ⟨S1600000x128, .f32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S100000x128, .f32⟩
  | 101 => ⟨S100000x128, .f32⟩
  | 102 => ⟨S1x1600000, .f32⟩
  | 103 => ⟨S1600000, .f32⟩
  | 104 => ⟨S1600000x1, .f32⟩
  | 105 => ⟨S1600000x128, .f32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x128, .f32⟩
  | 112 => ⟨S100000x128, .f32⟩
  | 113 => ⟨S1x1600000, .f32⟩
  | 114 => ⟨S1600000, .f32⟩
  | 115 => ⟨S1600000x1, .f32⟩
  | 116 => ⟨S1600000x128, .f32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x128, .f32⟩
  | 123 => ⟨S100000x128, .f32⟩
  | 124 => ⟨S1x100000x128, .f32⟩
  | 125 => ⟨S1x100000x128, .f32⟩
  | 126 => ⟨S1x100000x128, .f32⟩
  | 127 => ⟨S1x100000x128, .f32⟩
  | _ => ⟨S100000x128, .f32⟩

abbrev hbmTy0_1 (i : Nat) : BufTy := match i % 128 with
  | 0 => ⟨S1x100000x128, .f32⟩
  | 1 => ⟨S1x100000x128, .f32⟩
  | 2 => ⟨S1x100000x128, .f32⟩
  | 3 => ⟨S1x100000x128, .f32⟩
  | 4 => ⟨S8x100000x128, .f32⟩
  | 5 => ⟨S1x128, .f32⟩
  | 6 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S8x2000x128, .f32⟩
  | .local _ .vmem, ⟨3, _⟩ => ⟨S8x2000x128, .f32⟩
  | .local _ .vmem, ⟨4, _⟩ => ⟨S8x128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_12 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_13 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S8x1600000_S1x1600000_0_0 : S8x1600000.Slices ![0, 0] S1x1600000
  shapeCasts_S1x1600000_S1600000 : S1x1600000.ShapeCasts S1600000
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S8x1600000_S1x1600000_1_0 : S8x1600000.Slices ![1, 0] S1x1600000
  slices_S8x1600000_S1x1600000_2_0 : S8x1600000.Slices ![2, 0] S1x1600000
  slices_S8x1600000_S1x1600000_3_0 : S8x1600000.Slices ![3, 0] S1x1600000
  slices_S8x1600000_S1x1600000_4_0 : S8x1600000.Slices ![4, 0] S1x1600000
  slices_S8x1600000_S1x1600000_5_0 : S8x1600000.Slices ![5, 0] S1x1600000
  slices_S8x1600000_S1x1600000_6_0 : S8x1600000.Slices ![6, 0] S1x1600000
  slices_S8x1600000_S1x1600000_7_0 : S8x1600000.Slices ![7, 0] S1x1600000
  bcast_S100000x128_S1x100000x128_1_2 : S100000x128.BroadcastsInDim S1x100000x128 (![1, 2] : Fin 2 → Fin S1x100000x128.rank)
  concatenates_S1x100000x128_S1x100000x128_S1x100000x128_S1x100000x128_S1x100000x128_S1x100000x128_S1x100000x128_S1x100000x128_S8x100000x128_d0 : Shape.Concatenates [S1x100000x128, S1x100000x128, S1x100000x128, S1x100000x128, S1x100000x128, S1x100000x128, S1x100000x128, S1x100000x128] S8x100000x128 0
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S8x2000x128_S1x2000x128_0_0_0 : ∀ a, (![0, 0, 0] : Fin 3 → Nat) a + S1x2000x128.size a ≤ S8x2000x128.size a
  h_S1x2000x128 : 0 < S1x2000x128.numel
  shapeCasts_S1x2000x128_S2000x128 : S1x2000x128.ShapeCasts S2000x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S8x2000x128_S1x2000x128_1_0_0 : ∀ a, (![1, 0, 0] : Fin 3 → Nat) a + S1x2000x128.size a ≤ S8x2000x128.size a
  inb_S8x128x128_S1x128x128_1_0_0 : ∀ a, (![1, 0, 0] : Fin 3 → Nat) a + S1x128x128.size a ≤ S8x128x128.size a
  inb_S8x2000x128_S1x2000x128_2_0_0 : ∀ a, (![2, 0, 0] : Fin 3 → Nat) a + S1x2000x128.size a ≤ S8x2000x128.size a
  inb_S8x128x128_S1x128x128_2_0_0 : ∀ a, (![2, 0, 0] : Fin 3 → Nat) a + S1x128x128.size a ≤ S8x128x128.size a
  inb_S8x2000x128_S1x2000x128_3_0_0 : ∀ a, (![3, 0, 0] : Fin 3 → Nat) a + S1x2000x128.size a ≤ S8x2000x128.size a
  inb_S8x128x128_S1x128x128_3_0_0 : ∀ a, (![3, 0, 0] : Fin 3 → Nat) a + S1x128x128.size a ≤ S8x128x128.size a
  inb_S8x2000x128_S1x2000x128_4_0_0 : ∀ a, (![4, 0, 0] : Fin 3 → Nat) a + S1x2000x128.size a ≤ S8x2000x128.size a
  inb_S8x128x128_S1x128x128_4_0_0 : ∀ a, (![4, 0, 0] : Fin 3 → Nat) a + S1x128x128.size a ≤ S8x128x128.size a
  inb_S8x2000x128_S1x2000x128_5_0_0 : ∀ a, (![5, 0, 0] : Fin 3 → Nat) a + S1x2000x128.size a ≤ S8x2000x128.size a
  inb_S8x128x128_S1x128x128_5_0_0 : ∀ a, (![5, 0, 0] : Fin 3 → Nat) a + S1x128x128.size a ≤ S8x128x128.size a
  inb_S8x2000x128_S1x2000x128_6_0_0 : ∀ a, (![6, 0, 0] : Fin 3 → Nat) a + S1x2000x128.size a ≤ S8x2000x128.size a
  inb_S8x128x128_S1x128x128_6_0_0 : ∀ a, (![6, 0, 0] : Fin 3 → Nat) a + S1x128x128.size a ≤ S8x128x128.size a
  inb_S8x2000x128_S1x2000x128_7_0_0 : ∀ a, (![7, 0, 0] : Fin 3 → Nat) a + S1x2000x128.size a ≤ S8x2000x128.size a
  inb_S8x128x128_S1x128x128_7_0_0 : ∀ a, (![7, 0, 0] : Fin 3 → Nat) a + S1x128x128.size a ≤ S8x128x128.size a
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2000x128.size a ≤ S8x100000x128.size a
  hwx0_1 : ∀ i : grid0.Coords, EltTy.bits .f32 = 32 ∨ (Rect.block (s := S8x100000x128) S8x2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128x128.size a ≤ S8x128x128.size a
  hwx0_2 : ∀ i : grid0.Coords, EltTy.bits .f32 = 32 ∨ (Rect.block (s := S8x128x128) S8x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v107) S8x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v108) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v109) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S8x1600000 : Shape := ⟨2, ![8, 1600000]⟩
abbrev S8x128x128 : Shape := ⟨3, ![8, 128, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1x1600000 : Shape := ⟨2, ![1, 1600000]⟩
abbrev S1x128x128 : Shape := ⟨3, ![1, 128, 128]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S8x1600000, .f32⟩
  | 2 => ⟨S8x128x128, .f32⟩
  | 3 => ⟨S128x128, .f32⟩
  | 4 => ⟨S128, .f32⟩
  | 5 => ⟨S1600000, .i32⟩
  | 6 => ⟨S1600000, .i32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .i1⟩
  | 16 => ⟨S_, .f32⟩
  | 17 => ⟨S100000, .f32⟩
  | 18 => ⟨S100000, .f32⟩
  | 19 => ⟨S_, .f32⟩
  | 20 => ⟨S100000, .f32⟩
  | 21 => ⟨S100000, .f32⟩
  | 22 => ⟨S_, .f32⟩
  | 23 => ⟨S_, .f32⟩
  | 24 => ⟨S100000, .f32⟩
  | 25 => ⟨S100000, .f32⟩
  | 26 => ⟨S100000x1, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S100000x128, .f32⟩
  | 37 => ⟨S1x128, .f32⟩
  | 38 => ⟨S100000x128, .f32⟩
  | 39 => ⟨S100000x128, .f32⟩
  | 40 => ⟨S1x1600000, .f32⟩
  | 41 => ⟨S1600000, .f32⟩
  | 42 => ⟨S1600000x1, .f32⟩
  | 43 => ⟨S1600000x128, .f32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S100000x128, .f32⟩
  | 50 => ⟨S100000x128, .f32⟩
  | 51 => ⟨S1x128x128, .f32⟩
  | 52 => ⟨S128x128, .f32⟩
  | 53 => ⟨S100000x128, .f32⟩
  | 54 => ⟨S100000x128, .f32⟩
  | 55 => ⟨S1x1600000, .f32⟩
  | 56 => ⟨S1600000, .f32⟩
  | 57 => ⟨S1600000x1, .f32⟩
  | 58 => ⟨S1600000x128, .f32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000x128, .f32⟩
  | 65 => ⟨S100000x128, .f32⟩
  | 66 => ⟨S1x128x128, .f32⟩
  | 67 => ⟨S128x128, .f32⟩
  | 68 => ⟨S100000x128, .f32⟩
  | 69 => ⟨S100000x128, .f32⟩
  | 70 => ⟨S1x1600000, .f32⟩
  | 71 => ⟨S1600000, .f32⟩
  | 72 => ⟨S1600000x1, .f32⟩
  | 73 => ⟨S1600000x128, .f32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S100000x128, .f32⟩
  | 80 => ⟨S100000x128, .f32⟩
  | 81 => ⟨S1x128x128, .f32⟩
  | 82 => ⟨S128x128, .f32⟩
  | 83 => ⟨S100000x128, .f32⟩
  | 84 => ⟨S100000x128, .f32⟩
  | 85 => ⟨S1x1600000, .f32⟩
  | 86 => ⟨S1600000, .f32⟩
  | 87 => ⟨S1600000x1, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S100000x128, .f32⟩
  | 95 => ⟨S100000x128, .f32⟩
  | 96 => ⟨S1x128x128, .f32⟩
  | 97 => ⟨S128x128, .f32⟩
  | 98 => ⟨S100000x128, .f32⟩
  | 99 => ⟨S100000x128, .f32⟩
  | 100 => ⟨S1x1600000, .f32⟩
  | 101 => ⟨S1600000, .f32⟩
  | 102 => ⟨S1600000x1, .f32⟩
  | 103 => ⟨S1600000x128, .f32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S100000x128, .f32⟩
  | 115 => ⟨S1x1600000, .f32⟩
  | 116 => ⟨S1600000, .f32⟩
  | 117 => ⟨S1600000x1, .f32⟩
  | 118 => ⟨S1600000x128, .f32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S100000x128, .f32⟩
  | 125 => ⟨S100000x128, .f32⟩
  | 126 => ⟨S1x128x128, .f32⟩
  | 127 => ⟨S128x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x1600000, .f32⟩
  | 3 => ⟨S1600000, .f32⟩
  | 4 => ⟨S1600000x1, .f32⟩
  | 5 => ⟨S1600000x128, .f32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S100000x128, .f32⟩
  | 12 => ⟨S100000x128, .f32⟩
  | 13 => ⟨S1x128x128, .f32⟩
  | 14 => ⟨S128x128, .f32⟩
  | 15 => ⟨S100000x128, .f32⟩
  | 16 => ⟨S100000x128, .f32⟩
  | 17 => ⟨S1x1600000, .f32⟩
  | 18 => ⟨S1600000, .f32⟩
  | 19 => ⟨S1600000x1, .f32⟩
  | 20 => ⟨S1600000x128, .f32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x128, .f32⟩
  | 27 => ⟨S100000x128, .f32⟩
  | 28 => ⟨S1x128x128, .f32⟩
  | 29 => ⟨S128x128, .f32⟩
  | 30 => ⟨S100000x128, .f32⟩
  | 31 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_10 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_11 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_12 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_13 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S8x1600000_S1x1600000_0_0 : S8x1600000.Slices ![0, 0] S1x1600000
  shapeCasts_S1x1600000_S1600000 : S1x1600000.ShapeCasts S1600000
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S8x128x128_S1x128x128_0_0_0 : S8x128x128.Slices ![0, 0, 0] S1x128x128
  shapeCasts_S1x128x128_S128x128 : S1x128x128.ShapeCasts S128x128
  slices_S8x1600000_S1x1600000_1_0 : S8x1600000.Slices ![1, 0] S1x1600000
  slices_S8x128x128_S1x128x128_1_0_0 : S8x128x128.Slices ![1, 0, 0] S1x128x128
  slices_S8x1600000_S1x1600000_2_0 : S8x1600000.Slices ![2, 0] S1x1600000
  slices_S8x128x128_S1x128x128_2_0_0 : S8x128x128.Slices ![2, 0, 0] S1x128x128
  slices_S8x1600000_S1x1600000_3_0 : S8x1600000.Slices ![3, 0] S1x1600000
  slices_S8x128x128_S1x128x128_3_0_0 : S8x128x128.Slices ![3, 0, 0] S1x128x128
  slices_S8x1600000_S1x1600000_4_0 : S8x1600000.Slices ![4, 0] S1x1600000
  slices_S8x128x128_S1x128x128_4_0_0 : S8x128x128.Slices ![4, 0, 0] S1x128x128
  slices_S8x1600000_S1x1600000_5_0 : S8x1600000.Slices ![5, 0] S1x1600000
  slices_S8x128x128_S1x128x128_5_0_0 : S8x128x128.Slices ![5, 0, 0] S1x128x128
  slices_S8x1600000_S1x1600000_6_0 : S8x1600000.Slices ![6, 0] S1x1600000
  slices_S8x128x128_S1x128x128_6_0_0 : S8x128x128.Slices ![6, 0, 0] S1x128x128
  slices_S8x1600000_S1x1600000_7_0 : S8x1600000.Slices ![7, 0] S1x1600000
  slices_S8x128x128_S1x128x128_7_0_0 : S8x128x128.Slices ![7, 0, 0] S1x128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  dot_S100000x128_S128x128_S100000x128_1_0_0_1_n_n_wf : DotDims.WF S100000x128 S128x128 S100000x128 [1] [0] [0] [1] [] []
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.RegionBits.lean ====
/-
  The run of the kernel as printed through its one pipelined region, and the frame it gives.

  The program is three stretches of host operations, then one region over a grid of 50 points. At point `t` the
  region hands the body six blocks: rows `2000·t … 2000·t + 1999` of the node features, the same rows of each of
  the eight aggregated feature arrays (one 8 × 2000 × 128 block of the stacked array), the whole stack of relation
  weights, the skip weight, the bias row, and the output rows. The body loads every block whole, slice by slice
  along the relation axis, and stores the whole output block once. So after the body the output buffer holds one
  function (`outBlock`) of the five input blocks, the input buffers hold what they held, and the pipeline writes
  the output block back to rows `2000·t …` of the result.

  From this the run of the whole program follows: every execution terminates without a fault; the result array
  ends at what the write-backs leave; every other array ends as the host operations left it — the arguments as
  they were launched, since no host operation writes an argument.
-/
import proofs.«113227_j52458730553706_1_alg».proof.Proof.Gen.Kernel.Launch
import proofs.«113227_j52458730553706_1_alg».proof.Proof.Gen.Kernel.Skeleton
import proofs.«113227_j52458730553706_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What each buffer of core `c` holds when the region is entered: the launch contents after the three stretches
    of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- The program reduces to the region, holding every buffer at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not (an unfetched window's block index
    has not moved), for any proof data over `V` whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not (an unfetched window's block index
    has not moved), for any proof data over `V` whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not (an unfetched window's block index
    has not moved), for any proof data over `V` whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not (an unfetched window's block index
    has not moved), for any proof data over `V` whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not (an unfetched window's block index
    has not moved), for any proof data over `V` whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run that ends with every array of the pipeline at what the proof data computes and every other buffer as the
    region found it ends with the seven arguments as launched: arguments 0, 2 and 3 are staged inputs, which the
    pipeline only reads; arguments 1, 4, 5 and 6 are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The rectangles the body reads and writes -/

/-- The whole node-feature block, the whole skip weight, the whole bias row, the whole output block. -/
abbrev rRows : Rect S2000x128 := Rect.unit (s := S2000x128) ![0, 0] S2000x128.size inb_S2000x128_S2000x128_0_0
abbrev rSkip : Rect S128x128 := Rect.unit (s := S128x128) ![0, 0] S128x128.size inb_S128x128_S128x128_0_0
abbrev rBias : Rect S1x128 := Rect.unit (s := S1x128) ![0, 0] S1x128.size inb_S1x128_S1x128_0_0
/-- Relation `r`'s slice of the aggregated block and of the relation weights. -/
abbrev rAgg0 : Rect S8x2000x128 := Rect.unit (s := S8x2000x128) ![0, 0, 0] S1x2000x128.size inb_S8x2000x128_S1x2000x128_0_0_0
abbrev rRel0 : Rect S8x128x128 := Rect.unit (s := S8x128x128) ![0, 0, 0] S1x128x128.size inb_S8x128x128_S1x128x128_0_0_0
abbrev rAgg1 : Rect S8x2000x128 := Rect.unit (s := S8x2000x128) ![1, 0, 0] S1x2000x128.size inb_S8x2000x128_S1x2000x128_1_0_0
abbrev rRel1 : Rect S8x128x128 := Rect.unit (s := S8x128x128) ![1, 0, 0] S1x128x128.size inb_S8x128x128_S1x128x128_1_0_0
abbrev rAgg2 : Rect S8x2000x128 := Rect.unit (s := S8x2000x128) ![2, 0, 0] S1x2000x128.size inb_S8x2000x128_S1x2000x128_2_0_0
abbrev rRel2 : Rect S8x128x128 := Rect.unit (s := S8x128x128) ![2, 0, 0] S1x128x128.size inb_S8x128x128_S1x128x128_2_0_0
abbrev rAgg3 : Rect S8x2000x128 := Rect.unit (s := S8x2000x128) ![3, 0, 0] S1x2000x128.size inb_S8x2000x128_S1x2000x128_3_0_0
abbrev rRel3 : Rect S8x128x128 := Rect.unit (s := S8x128x128) ![3, 0, 0] S1x128x128.size inb_S8x128x128_S1x128x128_3_0_0
abbrev rAgg4 : Rect S8x2000x128 := Rect.unit (s := S8x2000x128) ![4, 0, 0] S1x2000x128.size inb_S8x2000x128_S1x2000x128_4_0_0
abbrev rRel4 : Rect S8x128x128 := Rect.unit (s := S8x128x128) ![4, 0, 0] S1x128x128.size inb_S8x128x128_S1x128x128_4_0_0
abbrev rAgg5 : Rect S8x2000x128 := Rect.unit (s := S8x2000x128) ![5, 0, 0] S1x2000x128.size inb_S8x2000x128_S1x2000x128_5_0_0
abbrev rRel5 : Rect S8x128x128 := Rect.unit (s := S8x128x128) ![5, 0, 0] S1x128x128.size inb_S8x128x128_S1x128x128_5_0_0
abbrev rAgg6 : Rect S8x2000x128 := Rect.unit (s := S8x2000x128) ![6, 0, 0] S1x2000x128.size inb_S8x2000x128_S1x2000x128_6_0_0
abbrev rRel6 : Rect S8x128x128 := Rect.unit (s := S8x128x128) ![6, 0, 0] S1x128x128.size inb_S8x128x128_S1x128x128_6_0_0
abbrev rAgg7 : Rect S8x2000x128 := Rect.unit (s := S8x2000x128) ![7, 0, 0] S1x2000x128.size inb_S8x2000x128_S1x2000x128_7_0_0
abbrev rRel7 : Rect S8x128x128 := Rect.unit (s := S8x128x128) ![7, 0, 0] S1x128x128.size inb_S8x128x128_S1x128x128_7_0_0

/-! ## What the body leaves in the output buffer -/

/-- The body's arithmetic on the five input blocks: the skip product plus the bias, then relation by relation the
    product of the relation's slice of the aggregates with its weight, added in order. -/
def outValue (x0 : Vec F S2000x128 .f32) (x1 : Vec F S8x2000x128 .f32) (x2 : Vec F S8x128x128 .f32) (x3 : Vec F S128x128 .f32)
    (x4 : Vec F S1x128 .f32) : FVec F S2000x128 .f32 :=
  k0_pay1
    (k0_pay5
      (k0_pay2 (View.ld x0 rRows) (View.ld x3 rSkip) (View.ld x4 rBias) (View.ld x1 rAgg0) (View.ld x2 rRel0) (View.ld x1 rAgg1) (View.ld x2 rRel1))
      (k0_pay3 (View.ld x1 rAgg2)) (k0_pay4 (View.ld x2 rRel2)) (constant S2000x128 .f32 0x00000000#32)
      (View.ld x1 rAgg3) (View.ld x2 rRel3) (View.ld x1 rAgg4) (View.ld x2 rRel4) (View.ld x1 rAgg5) (View.ld x2 rRel5))
    (k0_pay6 (View.ld x1 rAgg6)) (k0_pay7 (View.ld x2 rRel6)) (constant S2000x128 .f32 0x00000000#32)
    (View.ld x1 rAgg7) (View.ld x2 rRel7)

/-- The output buffer after the body: its one store, of `outValue`, over the whole block. -/
def outBlock (x0 : Vec F S2000x128 .f32) (x1 : Vec F S8x2000x128 .f32) (x2 : Vec F S8x128x128 .f32) (x3 : Vec F S128x128 .f32)
    (x4 : Vec F S1x128 .f32) : Vec F S2000x128 .f32 :=
  View.canon [⟨rRows, outValue x0 x1 x2 x3 x4⟩]

/-- The one store covers the buffer. -/
theorem cover_out (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 4000000 in
/-- The body on whole buffers, the five inputs at contents `x0 … x4` and the output at anything, runs to its
    continuation with the inputs as they were and the output at `outBlock` of them. -/
theorem sound_kernel (c : Dev nD) (E : Set ℕ) (i : grid0.Coords)
    (arg1 : Memref sig .tc .vmem S2000x128 .f32) (harg1 : arg1.IsWhole) (arg2 : Memref sig .tc .vmem S8x2000x128 .f32) (harg2 : arg2.IsWhole)
    (arg3 : Memref sig .tc .vmem S8x128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S8x2000x128 .f32) (x2 : Vec F S8x128x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__relconv_kernel i arg1 harg1 arg2 harg2 arg3 harg3 arg4 harg4 arg5 harg5 arg6 harg6) K := by
  simp only [cc0__relconv_kernel_eq_skeleton]; unfold cc0__relconv_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _)

/-! ## The pipeline's proof data -/

/-- On core `c`: the arrays as the region finds them; after the body at point `t` each input buffer at its block and
    the output buffer at `outBlock` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has each array of the pipeline at what the proof data computes and every other buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Region

end
-- ==== Proof.RegionIdeal.lean ====
/-
  The run of the idealized kernel through its one pipelined region, and the frame it gives.

  The program is three stretches of host operations, then one region over a grid of 50 points. At point `t` the
  region hands the body six blocks: rows `2000·t … 2000·t + 1999` of the node features, the same rows of each of
  the eight aggregated feature arrays (one 8 × 2000 × 128 block of the stacked array), the whole stack of relation
  weights, the skip weight, the bias row, and the output rows. The body loads every block whole, slice by slice
  along the relation axis, and stores the whole output block once. So after the body the output buffer holds one
  function (`outBlock`) of the five input blocks, the input buffers hold what they held, and the pipeline writes
  the output block back to rows `2000·t …` of the result.

  From this the run of the whole program follows: every execution terminates without a fault; the result array
  ends at what the write-backs leave; every other array ends as the host operations left it — the arguments as
  they were launched, since no host operation writes an argument.
-/
import proofs.«113227_j52458730553706_1_alg».proof.Proof.Gen.KernelIdeal.Launch
import proofs.«113227_j52458730553706_1_alg».proof.Proof.Gen.KernelIdeal.Skeleton
import proofs.«113227_j52458730553706_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What each buffer of core `c` holds when the region is entered: the launch contents after the three stretches
    of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- The program reduces to the region, holding every buffer at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not (an unfetched window's block index
    has not moved), for any proof data over `V` whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not (an unfetched window's block index
    has not moved), for any proof data over `V` whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not (an unfetched window's block index
    has not moved), for any proof data over `V` whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not (an unfetched window's block index
    has not moved), for any proof data over `V` whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not (an unfetched window's block index
    has not moved), for any proof data over `V` whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run that ends with every array of the pipeline at what the proof data computes and every other buffer as the
    region found it ends with the seven arguments as launched: arguments 0, 2 and 3 are staged inputs, which the
    pipeline only reads; arguments 1, 4, 5 and 6 are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The rectangles the body reads and writes -/

/-- The whole node-feature block, the whole skip weight, the whole bias row, the whole output block. -/
abbrev rRows : Rect S2000x128 := Rect.unit (s := S2000x128) ![0, 0] S2000x128.size inb_S2000x128_S2000x128_0_0
abbrev rSkip : Rect S128x128 := Rect.unit (s := S128x128) ![0, 0] S128x128.size inb_S128x128_S128x128_0_0
abbrev rBias : Rect S1x128 := Rect.unit (s := S1x128) ![0, 0] S1x128.size inb_S1x128_S1x128_0_0
/-- Relation `r`'s slice of the aggregated block and of the relation weights. -/
abbrev rAgg0 : Rect S8x2000x128 := Rect.unit (s := S8x2000x128) ![0, 0, 0] S1x2000x128.size inb_S8x2000x128_S1x2000x128_0_0_0
abbrev rRel0 : Rect S8x128x128 := Rect.unit (s := S8x128x128) ![0, 0, 0] S1x128x128.size inb_S8x128x128_S1x128x128_0_0_0
abbrev rAgg1 : Rect S8x2000x128 := Rect.unit (s := S8x2000x128) ![1, 0, 0] S1x2000x128.size inb_S8x2000x128_S1x2000x128_1_0_0
abbrev rRel1 : Rect S8x128x128 := Rect.unit (s := S8x128x128) ![1, 0, 0] S1x128x128.size inb_S8x128x128_S1x128x128_1_0_0
abbrev rAgg2 : Rect S8x2000x128 := Rect.unit (s := S8x2000x128) ![2, 0, 0] S1x2000x128.size inb_S8x2000x128_S1x2000x128_2_0_0
abbrev rRel2 : Rect S8x128x128 := Rect.unit (s := S8x128x128) ![2, 0, 0] S1x128x128.size inb_S8x128x128_S1x128x128_2_0_0
abbrev rAgg3 : Rect S8x2000x128 := Rect.unit (s := S8x2000x128) ![3, 0, 0] S1x2000x128.size inb_S8x2000x128_S1x2000x128_3_0_0
abbrev rRel3 : Rect S8x128x128 := Rect.unit (s := S8x128x128) ![3, 0, 0] S1x128x128.size inb_S8x128x128_S1x128x128_3_0_0
abbrev rAgg4 : Rect S8x2000x128 := Rect.unit (s := S8x2000x128) ![4, 0, 0] S1x2000x128.size inb_S8x2000x128_S1x2000x128_4_0_0
abbrev rRel4 : Rect S8x128x128 := Rect.unit (s := S8x128x128) ![4, 0, 0] S1x128x128.size inb_S8x128x128_S1x128x128_4_0_0
abbrev rAgg5 : Rect S8x2000x128 := Rect.unit (s := S8x2000x128) ![5, 0, 0] S1x2000x128.size inb_S8x2000x128_S1x2000x128_5_0_0
abbrev rRel5 : Rect S8x128x128 := Rect.unit (s := S8x128x128) ![5, 0, 0] S1x128x128.size inb_S8x128x128_S1x128x128_5_0_0
abbrev rAgg6 : Rect S8x2000x128 := Rect.unit (s := S8x2000x128) ![6, 0, 0] S1x2000x128.size inb_S8x2000x128_S1x2000x128_6_0_0
abbrev rRel6 : Rect S8x128x128 := Rect.unit (s := S8x128x128) ![6, 0, 0] S1x128x128.size inb_S8x128x128_S1x128x128_6_0_0
abbrev rAgg7 : Rect S8x2000x128 := Rect.unit (s := S8x2000x128) ![7, 0, 0] S1x2000x128.size inb_S8x2000x128_S1x2000x128_7_0_0
abbrev rRel7 : Rect S8x128x128 := Rect.unit (s := S8x128x128) ![7, 0, 0] S1x128x128.size inb_S8x128x128_S1x128x128_7_0_0

/-! ## What the body leaves in the output buffer -/

/-- The body's arithmetic on the five input blocks: the skip product plus the bias, then relation by relation the
    product of the relation's slice of the aggregates with its weight, added in order. -/
def outValue (x0 : Vec F S2000x128 .f32) (x1 : Vec F S8x2000x128 .f32) (x2 : Vec F S8x128x128 .f32) (x3 : Vec F S128x128 .f32)
    (x4 : Vec F S1x128 .f32) : FVec F S2000x128 .f32 :=
  k0_pay1
    (k0_pay5
      (k0_pay2 (View.ld x0 rRows) (View.ld x3 rSkip) (View.ld x4 rBias) (View.ld x1 rAgg0) (View.ld x2 rRel0) (View.ld x1 rAgg1) (View.ld x2 rRel1))
      (k0_pay3 (View.ld x1 rAgg2)) (k0_pay4 (View.ld x2 rRel2)) (constant S2000x128 .f32 0x00000000#32)
      (View.ld x1 rAgg3) (View.ld x2 rRel3) (View.ld x1 rAgg4) (View.ld x2 rRel4) (View.ld x1 rAgg5) (View.ld x2 rRel5))
    (k0_pay6 (View.ld x1 rAgg6)) (k0_pay7 (View.ld x2 rRel6)) (constant S2000x128 .f32 0x00000000#32)
    (View.ld x1 rAgg7) (View.ld x2 rRel7)

/-- The output buffer after the body: its one store, of `outValue`, over the whole block. -/
def outBlock (x0 : Vec F S2000x128 .f32) (x1 : Vec F S8x2000x128 .f32) (x2 : Vec F S8x128x128 .f32) (x3 : Vec F S128x128 .f32)
    (x4 : Vec F S1x128 .f32) : Vec F S2000x128 .f32 :=
  View.canon [⟨rRows, outValue x0 x1 x2 x3 x4⟩]

/-- The one store covers the buffer. -/
theorem cover_out (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 4000000 in
/-- The body on whole buffers, the five inputs at contents `x0 … x4` and the output at anything, runs to its
    continuation with the inputs as they were and the output at `outBlock` of them. -/
theorem sound_kernel (c : Dev nD) (E : Set ℕ) (i : grid0.Coords)
    (arg1 : Memref sig .tc .vmem S2000x128 .f32) (harg1 : arg1.IsWhole) (arg2 : Memref sig .tc .vmem S8x2000x128 .f32) (harg2 : arg2.IsWhole)
    (arg3 : Memref sig .tc .vmem S8x128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S8x2000x128 .f32) (x2 : Vec F S8x128x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__relconv_kernel i arg1 harg1 arg2 harg2 arg3 harg3 arg4 harg4 arg5 harg5 arg6 harg6) K := by
  simp only [cc0__relconv_kernel_eq_skeleton]; unfold cc0__relconv_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _)

/-! ## The pipeline's proof data -/

/-- On core `c`: the arrays as the region finds them; after the body at point `t` each input buffer at its block and
    the output buffer at `outBlock` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has each array of the pipeline at what the proof data computes and every other buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Region

end
-- ==== Proof.RelConvSpec.lean ====
/-
  The relational graph convolution's last step, entry by entry.

  Given node features `x` (M rows of 128), a skip weight `W` (128 × 128), a bias `b` (128), eight aggregated
  feature arrays `A q` (M rows of 128 each) and eight relation weights `R q` (128 × 128 each), the result at row
  `r` and column `j` is

      ((∑ k, x r k · W k j) + b j) + ∑ k, A 0 r k · R 0 k j + … + ∑ k, A 7 r k · R 7 k j,

  the eight relation terms added one after the other, in the order 0, …, 7. Both programs compute exactly this
  nesting, so nothing about the extended reals is needed to join them beyond reading each side at an entry.
-/
import Idealize.ShloMosaic.PureOps.Ideal
import Idealize.ShloMosaic.Lib.ValueIdx

noncomputable section

open scoped BigOperators

namespace Cert.RelConv

open Idealize.ShloMosaic Idealize.ShloMosaic.ValueIdx

variable {M : Nat}

/-- The skip connection at `(r, j)`: the product row by column, plus the bias. -/
def skipTerm (x : Fin M → Fin 128 → EReal) (W : Fin 128 → Fin 128 → EReal) (b : Fin 128 → EReal) (r : Fin M) (j : Fin 128) : EReal :=
  (∑ k : Fin 128, x r k * W k j) + b j

/-- Relation `q`'s contribution at `(r, j)`: its aggregated features times its weight. -/
def relTerm (A : Fin 8 → Fin M → Fin 128 → EReal) (R : Fin 8 → Fin 128 → Fin 128 → EReal) (q : Fin 8) (r : Fin M) (j : Fin 128) : EReal :=
  ∑ k : Fin 128, A q r k * R q k j

/-- The result at `(r, j)`: the skip term, then the eight relation terms added in order. -/
def conv (x : Fin M → Fin 128 → EReal) (W : Fin 128 → Fin 128 → EReal) (b : Fin 128 → EReal)
    (A : Fin 8 → Fin M → Fin 128 → EReal) (R : Fin 8 → Fin 128 → Fin 128 → EReal) (r : Fin M) (j : Fin 128) : EReal :=
  skipTerm x W b r j + relTerm A R 0 r j + relTerm A R 1 r j + relTerm A R 2 r j + relTerm A R 3 r j
    + relTerm A R 4 r j + relTerm A R 5 r j + relTerm A R 6 r j + relTerm A R 7 r j

/-- The result depends on the rows only through the row read: restricting the features and the aggregates to a
    window of rows `ι : Fin M' → Fin M` restricts the result. -/
theorem conv_rows {M' : Nat} (ι : Fin M' → Fin M) (x : Fin M → Fin 128 → EReal) (W : Fin 128 → Fin 128 → EReal) (b : Fin 128 → EReal)
    (A : Fin 8 → Fin M → Fin 128 → EReal) (R : Fin 8 → Fin 128 → Fin 128 → EReal) (r : Fin M') (j : Fin 128) :
    conv (fun r k => x (ι r) k) W b (fun q r k => A q (ι r) k) R r j = conv x W b A R (ι r) j := rfl

/-- The whole result array, 100000 nodes by 128 columns, from the node features, the eight aggregated arrays, the stack
    of relation weights, the skip weight and the bias vector. -/
def result (nf : (⟨2, ![100000, 128]⟩ : Shape).Idx → EReal) (agg : Fin 8 → (⟨2, ![100000, 128]⟩ : Shape).Idx → EReal)
    (relW : (⟨3, ![8, 128, 128]⟩ : Shape).Idx → EReal) (skipW : (⟨2, ![128, 128]⟩ : Shape).Idx → EReal)
    (bias : (⟨1, ![128]⟩ : Shape).Idx → EReal) : (⟨2, ![100000, 128]⟩ : Shape).Idx → EReal :=
  fun i => conv (M := 100000) (fun r k => nf (ix2 r k)) (fun k j => skipW (ix2 k j)) (fun j => bias (ix1 j))
    (fun q r k => agg q (ix2 r k)) (fun q k j => relW (ix3 q k j)) (i 0) (i 1)

theorem result_apply (nf : (⟨2, ![100000, 128]⟩ : Shape).Idx → EReal) (agg : Fin 8 → (⟨2, ![100000, 128]⟩ : Shape).Idx → EReal)
    (relW : (⟨3, ![8, 128, 128]⟩ : Shape).Idx → EReal) (skipW : (⟨2, ![128, 128]⟩ : Shape).Idx → EReal)
    (bias : (⟨1, ![128]⟩ : Shape).Idx → EReal) (n : Fin 100000) (j : Fin 128) :
    result nf agg relW skipW bias (ix2 n j)
      = conv (M := 100000) (fun r k => nf (ix2 r k)) (fun k j => skipW (ix2 k j)) (fun j => bias (ix1 j))
          (fun q r k => agg q (ix2 r k)) (fun q k j => relW (ix3 q k j)) n j := rfl

end Cert.RelConv

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«113227_j52458730553706_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibSliceProduct.lean ====
/-
  The product of two slices with a leading unit axis, read at an entry, at the ideal instance.

  A kernel that keeps a stack of matrices in one buffer loads matrix `q` as a `[1, M, K]` slice, casts it to
  `[M, K]`, rounds it to a narrower float format and multiplies it by a `[1, K, N]` slice treated the same way,
  into the zero accumulator. At the ideal instance the rounding is the identity and the product is the textbook
  sum, so the entry at row `p` and column `c` is `∑ k, a (0, p, k) · w (0, k, c)`. Stated for any plain
  dimension-number record, any extents and any two formats.
-/
import proofs.«113227_j52458730553706_1_alg».proof.Proof.LibMatmulNN
import Idealize.ShloMosaic.Lib.ValueLayout

noncomputable section

open scoped BigOperators

namespace Cert.LibSliceProduct

open Idealize.ShloMosaic Idealize.ShloMosaic.ValueIdx

variable {M K N : Nat} {φ ψ : FTy}

/-- The rounded, cast slices' product at the entry `(p, c)`. -/
theorem sliceProduct_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (a : FVec Ideal ⟨3, ![1, M, K]⟩ φ) (w : FVec Ideal ⟨3, ![1, K, N]⟩ φ)
    (ha : (⟨3, ![1, M, K]⟩ : Shape).ShapeCasts ⟨2, ![M, K]⟩) (hw : (⟨3, ![1, K, N]⟩ : Shape).ShapeCasts ⟨2, ![K, N]⟩)
    (hbits : ψ.bits < φ.bits) (p : Fin M) (c : Fin N) :
    matmul d prec (truncf ψ (shapeCast ⟨2, ![M, K]⟩ a ha) hbits) (truncf ψ (shapeCast ⟨2, ![K, N]⟩ w hw) hbits)
        (constant (F := Ideal) ⟨2, ![M, N]⟩ .f32 0x00000000#32) (ix2 p c)
      = ∑ k : Fin K, a (ix3 (0 : Fin 1) p k) * w (ix3 (0 : Fin 1) k c) := by
  rw [Cert.LibMatmulNN.matmul_zero_apply' d hlc hrc hln hrn hlb hrb prec _ _ p c]
  refine Finset.sum_congr rfl fun k _ => ?_
  rw [truncf_apply, truncf_apply, shapeCast_1ab_ab_apply a ha p k, shapeCast_1ab_ab_apply w hw k c]

end Cert.LibSliceProduct

end
-- ==== Proof.BodyValue.lean ====
/-
  The body's arithmetic, read at an entry, at the ideal instance.

  On blocks `x0` (2000 × 128 node features), `x1` (8 × 2000 × 128 aggregates), `x2` (8 × 128 × 128 relation
  weights), `x3` (128 × 128 skip weight) and `x4` (1 × 128 bias row) the body computes, at row `p` and column `c`
  of the block,

      ((∑ k, x0 (p, k) · x3 (k, c)) + x4 (0, c)) + ∑ k, x1 (0, p, k) · x2 (0, k, c) + … + ∑ k, x1 (7, p, k) · x2 (7, k, c):

  each rounding to bf16 is the identity on the extended reals, each matrix product into the zero accumulator is
  the textbook sum, relation `q`'s slices are read at leading coordinate `q`, and the additions nest in the
  order the relations come. That is the specification `Cert.RelConv.conv` of the blocks' rows.
-/
import proofs.«113227_j52458730553706_1_alg».proof.Proof.RegionIdeal
import proofs.«113227_j52458730553706_1_alg».proof.Proof.RelConvSpec
import proofs.«113227_j52458730553706_1_alg».proof.Proof.LibAffineBlock
import proofs.«113227_j52458730553706_1_alg».proof.Proof.LibSliceProduct

set_option maxRecDepth 16384

noncomputable section

open scoped BigOperators

namespace Cert.KernelIdeal.BodyValue

open Idealize.ShloMosaic Idealize.ShloMosaic.ValueIdx
open Cert.KernelIdeal Cert.KernelIdeal.Gen Cert.KernelIdeal.Region Cert.RelConv

/-! ## The rectangles, by coordinates -/

/-- The whole-block rectangles read an index where it is. -/
theorem rows_idx (p : Fin 2000) (k : Fin 128) : rRows.idx (ix2 p k) = ix2 p k := by
  funext a; apply Fin.ext
  match a with
  | ⟨0, _⟩ => show 0 + 1 * p.val = p.val; omega
  | ⟨1, _⟩ => show 0 + 1 * k.val = k.val; omega
theorem skip_idx (k : Fin 128) (c : Fin 128) : rSkip.idx (ix2 k c) = ix2 k c := by
  funext a; apply Fin.ext
  match a with
  | ⟨0, _⟩ => show 0 + 1 * k.val = k.val; omega
  | ⟨1, _⟩ => show 0 + 1 * c.val = c.val; omega
theorem bias_idx (c : Fin 128) : rBias.idx (ix2 (0 : Fin 1) c) = ix2 (0 : Fin 1) c := by
  funext a; apply Fin.ext
  match a with
  | ⟨0, _⟩ => rfl
  | ⟨1, _⟩ => show 0 + 1 * c.val = c.val; omega

/-- Relation `q`'s slice reads leading coordinate `q`. -/
theorem agg0_idx (p : Fin 2000) (k : Fin 128) : rAgg0.idx (ix3 (0 : Fin 1) p k) = ix3 (0 : Fin 8) p k := by
  funext a; apply Fin.ext
  match a with
  | ⟨0, _⟩ => rfl
  | ⟨1, _⟩ => show 0 + 1 * p.val = p.val; omega
  | ⟨2, _⟩ => show 0 + 1 * k.val = k.val; omega
theorem rel0_idx (k : Fin 128) (c : Fin 128) : rRel0.idx (ix3 (0 : Fin 1) k c) = ix3 (0 : Fin 8) k c := by
  funext a; apply Fin.ext
  match a with
  | ⟨0, _⟩ => rfl
  | ⟨1, _⟩ => show 0 + 1 * k.val = k.val; omega
  | ⟨2, _⟩ => show 0 + 1 * c.val = c.val; omega
theorem agg1_idx (p : Fin 2000) (k : Fin 128) : rAgg1.idx (ix3 (0 : Fin 1) p k) = ix3 (1 : Fin 8) p k := by
  funext a; apply Fin.ext
  match a with
  | ⟨0, _⟩ => rfl
  | ⟨1, _⟩ => show 0 + 1 * p.val = p.val; omega
  | ⟨2, _⟩ => show 0 + 1 * k.val = k.val; omega
theorem rel1_idx (k : Fin 128) (c : Fin 128) : rRel1.idx (ix3 (0 : Fin 1) k c) = ix3 (1 : Fin 8) k c := by
  funext a; apply Fin.ext
  match a with
  | ⟨0, _⟩ => rfl
  | ⟨1, _⟩ => show 0 + 1 * k.val = k.val; omega
  | ⟨2, _⟩ => show 0 + 1 * c.val = c.val; omega
theorem agg2_idx (p : Fin 2000) (k : Fin 128) : rAgg2.idx (ix3 (0 : Fin 1) p k) = ix3 (2 : Fin 8) p k := by
  funext a; apply Fin.ext
  match a with
  | ⟨0, _⟩ => rfl
  | ⟨1, _⟩ => show 0 + 1 * p.val = p.val; omega
  | ⟨2, _⟩ => show 0 + 1 * k.val = k.val; omega
theorem rel2_idx (k : Fin 128) (c : Fin 128) : rRel2.idx (ix3 (0 : Fin 1) k c) = ix3 (2 : Fin 8) k c := by
  funext a; apply Fin.ext
  match a with
  | ⟨0, _⟩ => rfl
  | ⟨1, _⟩ => show 0 + 1 * k.val = k.val; omega
  | ⟨2, _⟩ => show 0 + 1 * c.val = c.val; omega
theorem agg3_idx (p : Fin 2000) (k : Fin 128) : rAgg3.idx (ix3 (0 : Fin 1) p k) = ix3 (3 : Fin 8) p k := by
  funext a; apply Fin.ext
  match a with
  | ⟨0, _⟩ => rfl
  | ⟨1, _⟩ => show 0 + 1 * p.val = p.val; omega
  | ⟨2, _⟩ => show 0 + 1 * k.val = k.val; omega
theorem rel3_idx (k : Fin 128) (c : Fin 128) : rRel3.idx (ix3 (0 : Fin 1) k c) = ix3 (3 : Fin 8) k c := by
  funext a; apply Fin.ext
  match a with
  | ⟨0, _⟩ => rfl
  | ⟨1, _⟩ => show 0 + 1 * k.val = k.val; omega
  | ⟨2, _⟩ => show 0 + 1 * c.val = c.val; omega
theorem agg4_idx (p : Fin 2000) (k : Fin 128) : rAgg4.idx (ix3 (0 : Fin 1) p k) = ix3 (4 : Fin 8) p k := by
  funext a; apply Fin.ext
  match a with
  | ⟨0, _⟩ => rfl
  | ⟨1, _⟩ => show 0 + 1 * p.val = p.val; omega
  | ⟨2, _⟩ => show 0 + 1 * k.val = k.val; omega
theorem rel4_idx (k : Fin 128) (c : Fin 128) : rRel4.idx (ix3 (0 : Fin 1) k c) = ix3 (4 : Fin 8) k c := by
  funext a; apply Fin.ext
  match a with
  | ⟨0, _⟩ => rfl
  | ⟨1, _⟩ => show 0 + 1 * k.val = k.val; omega
  | ⟨2, _⟩ => show 0 + 1 * c.val = c.val; omega
theorem agg5_idx (p : Fin 2000) (k : Fin 128) : rAgg5.idx (ix3 (0 : Fin 1) p k) = ix3 (5 : Fin 8) p k := by
  funext a; apply Fin.ext
  match a with
  | ⟨0, _⟩ => rfl
  | ⟨1, _⟩ => show 0 + 1 * p.val = p.val; omega
  | ⟨2, _⟩ => show 0 + 1 * k.val = k.val; omega
theorem rel5_idx (k : Fin 128) (c : Fin 128) : rRel5.idx (ix3 (0 : Fin 1) k c) = ix3 (5 : Fin 8) k c := by
  funext a; apply Fin.ext
  match a with
  | ⟨0, _⟩ => rfl
  | ⟨1, _⟩ => show 0 + 1 * k.val = k.val; omega
  | ⟨2, _⟩ => show 0 + 1 * c.val = c.val; omega
theorem agg6_idx (p : Fin 2000) (k : Fin 128) : rAgg6.idx (ix3 (0 : Fin 1) p k) = ix3 (6 : Fin 8) p k := by
  funext a; apply Fin.ext
  match a with
  | ⟨0, _⟩ => rfl
  | ⟨1, _⟩ => show 0 + 1 * p.val = p.val; omega
  | ⟨2, _⟩ => show 0 + 1 * k.val = k.val; omega
theorem rel6_idx (k : Fin 128) (c : Fin 128) : rRel6.idx (ix3 (0 : Fin 1) k c) = ix3 (6 : Fin 8) k c := by
  funext a; apply Fin.ext
  match a with
  | ⟨0, _⟩ => rfl
  | ⟨1, _⟩ => show 0 + 1 * k.val = k.val; omega
  | ⟨2, _⟩ => show 0 + 1 * c.val = c.val; omega
theorem agg7_idx (p : Fin 2000) (k : Fin 128) : rAgg7.idx (ix3 (0 : Fin 1) p k) = ix3 (7 : Fin 8) p k := by
  funext a; apply Fin.ext
  match a with
  | ⟨0, _⟩ => rfl
  | ⟨1, _⟩ => show 0 + 1 * p.val = p.val; omega
  | ⟨2, _⟩ => show 0 + 1 * k.val = k.val; omega
theorem rel7_idx (k : Fin 128) (c : Fin 128) : rRel7.idx (ix3 (0 : Fin 1) k c) = ix3 (7 : Fin 8) k c := by
  funext a; apply Fin.ext
  match a with
  | ⟨0, _⟩ => rfl
  | ⟨1, _⟩ => show 0 + 1 * k.val = k.val; omega
  | ⟨2, _⟩ => show 0 + 1 * c.val = c.val; omega

/-! ## The pieces -/

/-- The skip product plus the bias row, at `(p, c)`. -/
theorem skip_apply (x0 : Vec Ideal S2000x128 .f32) (x3 : Vec Ideal S128x128 .f32) (x4 : Vec Ideal S1x128 .f32) (p : Fin 2000) (c : Fin 128) :
    addf (matmul dot_S2000x128_S128x128_S2000x128_1_0_0_1_n_n none (truncf .bf16 (View.ld x0 rRows) bitsLt_bf16_f32)
          (truncf .bf16 (View.ld x3 rSkip) bitsLt_bf16_f32) (constant (F := Ideal) S2000x128 .f32 0x00000000#32))
        (broadcastTo S2000x128 (shapeCast S1x128 (View.ld x4 rBias) shapeCasts_S1x128_S1x128) broadcasts_S1x128_S2000x128) (ix2 p c)
      = skipTerm (fun r k => x0 (ix2 r k)) (fun k j => x3 (ix2 k j)) (fun j => x4 (ix2 (0 : Fin 1) j)) p c := by
  refine (Cert.LibAffineBlock.affine_apply dot_S2000x128_S128x128_S2000x128_1_0_0_1_n_n rfl rfl rfl rfl rfl rfl none
    _ _ _ broadcasts_S1x128_S2000x128 p c).trans ?_
  unfold skipTerm
  refine congrArg₂ (· + ·) (Finset.sum_congr rfl fun k _ => ?_) ?_
  · rw [truncf_apply, truncf_apply]
    show x0 (rRows.idx (ix2 p k)) * x3 (rSkip.idx (ix2 k c)) = _
    rw [rows_idx, skip_idx]
  · refine (congrFun (shapeCast_self (s := S1x128) (View.ld x4 rBias) shapeCasts_S1x128_S1x128) (ix2 (0 : Fin 1) c)).trans ?_
    show x4 (rBias.idx (ix2 (0 : Fin 1) c)) = _
    rw [bias_idx]

/-- Relation 0's product at `(p, c)`. -/
theorem rel0_apply (x1 : Vec Ideal S8x2000x128 .f32) (x2 : Vec Ideal S8x128x128 .f32) (p : Fin 2000) (c : Fin 128) :
    matmul dot_S2000x128_S128x128_S2000x128_1_0_0_1_n_n none
        (truncf .bf16 (shapeCast S2000x128 (View.ld x1 rAgg0) shapeCasts_S1x2000x128_S2000x128) bitsLt_bf16_f32)
        (truncf .bf16 (shapeCast S128x128 (View.ld x2 rRel0) shapeCasts_S1x128x128_S128x128) bitsLt_bf16_f32)
        (constant (F := Ideal) S2000x128 .f32 0x00000000#32) (ix2 p c)
      = relTerm (fun s r k => x1 (ix3 s r k)) (fun s k j => x2 (ix3 s k j)) 0 p c := by
  refine (Cert.LibSliceProduct.sliceProduct_apply dot_S2000x128_S128x128_S2000x128_1_0_0_1_n_n rfl rfl rfl rfl rfl rfl none
    _ _ shapeCasts_S1x2000x128_S2000x128 shapeCasts_S1x128x128_S128x128 bitsLt_bf16_f32 p c).trans ?_
  unfold relTerm
  refine Finset.sum_congr rfl fun k _ => ?_
  show x1 (rAgg0.idx (ix3 (0 : Fin 1) p k)) * x2 (rRel0.idx (ix3 (0 : Fin 1) k c)) = _
  rw [agg0_idx, rel0_idx]
/-- Relation 1's product at `(p, c)`. -/
theorem rel1_apply (x1 : Vec Ideal S8x2000x128 .f32) (x2 : Vec Ideal S8x128x128 .f32) (p : Fin 2000) (c : Fin 128) :
    matmul dot_S2000x128_S128x128_S2000x128_1_0_0_1_n_n none
        (truncf .bf16 (shapeCast S2000x128 (View.ld x1 rAgg1) shapeCasts_S1x2000x128_S2000x128) bitsLt_bf16_f32)
        (truncf .bf16 (shapeCast S128x128 (View.ld x2 rRel1) shapeCasts_S1x128x128_S128x128) bitsLt_bf16_f32)
        (constant (F := Ideal) S2000x128 .f32 0x00000000#32) (ix2 p c)
      = relTerm (fun s r k => x1 (ix3 s r k)) (fun s k j => x2 (ix3 s k j)) 1 p c := by
  refine (Cert.LibSliceProduct.sliceProduct_apply dot_S2000x128_S128x128_S2000x128_1_0_0_1_n_n rfl rfl rfl rfl rfl rfl none
    _ _ shapeCasts_S1x2000x128_S2000x128 shapeCasts_S1x128x128_S128x128 bitsLt_bf16_f32 p c).trans ?_
  unfold relTerm
  refine Finset.sum_congr rfl fun k _ => ?_
  show x1 (rAgg1.idx (ix3 (0 : Fin 1) p k)) * x2 (rRel1.idx (ix3 (0 : Fin 1) k c)) = _
  rw [agg1_idx, rel1_idx]
/-- Relation 2's product at `(p, c)`. -/
theorem rel2_apply (x1 : Vec Ideal S8x2000x128 .f32) (x2 : Vec Ideal S8x128x128 .f32) (p : Fin 2000) (c : Fin 128) :
    matmul dot_S2000x128_S128x128_S2000x128_1_0_0_1_n_n none
        (truncf .bf16 (shapeCast S2000x128 (View.ld x1 rAgg2) shapeCasts_S1x2000x128_S2000x128) bitsLt_bf16_f32)
        (truncf .bf16 (shapeCast S128x128 (View.ld x2 rRel2) shapeCasts_S1x128x128_S128x128) bitsLt_bf16_f32)
        (constant (F := Ideal) S2000x128 .f32 0x00000000#32) (ix2 p c)
      = relTerm (fun s r k => x1 (ix3 s r k)) (fun s k j => x2 (ix3 s k j)) 2 p c := by
  refine (Cert.LibSliceProduct.sliceProduct_apply dot_S2000x128_S128x128_S2000x128_1_0_0_1_n_n rfl rfl rfl rfl rfl rfl none
    _ _ shapeCasts_S1x2000x128_S2000x128 shapeCasts_S1x128x128_S128x128 bitsLt_bf16_f32 p c).trans ?_
  unfold relTerm
  refine Finset.sum_congr rfl fun k _ => ?_
  show x1 (rAgg2.idx (ix3 (0 : Fin 1) p k)) * x2 (rRel2.idx (ix3 (0 : Fin 1) k c)) = _
  rw [agg2_idx, rel2_idx]
/-- Relation 3's product at `(p, c)`. -/
theorem rel3_apply (x1 : Vec Ideal S8x2000x128 .f32) (x2 : Vec Ideal S8x128x128 .f32) (p : Fin 2000) (c : Fin 128) :
    matmul dot_S2000x128_S128x128_S2000x128_1_0_0_1_n_n none
        (truncf .bf16 (shapeCast S2000x128 (View.ld x1 rAgg3) shapeCasts_S1x2000x128_S2000x128) bitsLt_bf16_f32)
        (truncf .bf16 (shapeCast S128x128 (View.ld x2 rRel3) shapeCasts_S1x128x128_S128x128) bitsLt_bf16_f32)
        (constant (F := Ideal) S2000x128 .f32 0x00000000#32) (ix2 p c)
      = relTerm (fun s r k => x1 (ix3 s r k)) (fun s k j => x2 (ix3 s k j)) 3 p c := by
  refine (Cert.LibSliceProduct.sliceProduct_apply dot_S2000x128_S128x128_S2000x128_1_0_0_1_n_n rfl rfl rfl rfl rfl rfl none
    _ _ shapeCasts_S1x2000x128_S2000x128 shapeCasts_S1x128x128_S128x128 bitsLt_bf16_f32 p c).trans ?_
  unfold relTerm
  refine Finset.sum_congr rfl fun k _ => ?_
  show x1 (rAgg3.idx (ix3 (0 : Fin 1) p k)) * x2 (rRel3.idx (ix3 (0 : Fin 1) k c)) = _
  rw [agg3_idx, rel3_idx]
/-- Relation 4's product at `(p, c)`. -/
theorem rel4_apply (x1 : Vec Ideal S8x2000x128 .f32) (x2 : Vec Ideal S8x128x128 .f32) (p : Fin 2000) (c : Fin 128) :
    matmul dot_S2000x128_S128x128_S2000x128_1_0_0_1_n_n none
        (truncf .bf16 (shapeCast S2000x128 (View.ld x1 rAgg4) shapeCasts_S1x2000x128_S2000x128) bitsLt_bf16_f32)
        (truncf .bf16 (shapeCast S128x128 (View.ld x2 rRel4) shapeCasts_S1x128x128_S128x128) bitsLt_bf16_f32)
        (constant (F := Ideal) S2000x128 .f32 0x00000000#32) (ix2 p c)
      = relTerm (fun s r k => x1 (ix3 s r k)) (fun s k j => x2 (ix3 s k j)) 4 p c := by
  refine (Cert.LibSliceProduct.sliceProduct_apply dot_S2000x128_S128x128_S2000x128_1_0_0_1_n_n rfl rfl rfl rfl rfl rfl none
    _ _ shapeCasts_S1x2000x128_S2000x128 shapeCasts_S1x128x128_S128x128 bitsLt_bf16_f32 p c).trans ?_
  unfold relTerm
  refine Finset.sum_congr rfl fun k _ => ?_
  show x1 (rAgg4.idx (ix3 (0 : Fin 1) p k)) * x2 (rRel4.idx (ix3 (0 : Fin 1) k c)) = _
  rw [agg4_idx, rel4_idx]
/-- Relation 5's product at `(p, c)`. -/
theorem rel5_apply (x1 : Vec Ideal S8x2000x128 .f32) (x2 : Vec Ideal S8x128x128 .f32) (p : Fin 2000) (c : Fin 128) :
    matmul dot_S2000x128_S128x128_S2000x128_1_0_0_1_n_n none
        (truncf .bf16 (shapeCast S2000x128 (View.ld x1 rAgg5) shapeCasts_S1x2000x128_S2000x128) bitsLt_bf16_f32)
        (truncf .bf16 (shapeCast S128x128 (View.ld x2 rRel5) shapeCasts_S1x128x128_S128x128) bitsLt_bf16_f32)
        (constant (F := Ideal) S2000x128 .f32 0x00000000#32) (ix2 p c)
      = relTerm (fun s r k => x1 (ix3 s r k)) (fun s k j => x2 (ix3 s k j)) 5 p c := by
  refine (Cert.LibSliceProduct.sliceProduct_apply dot_S2000x128_S128x128_S2000x128_1_0_0_1_n_n rfl rfl rfl rfl rfl rfl none
    _ _ shapeCasts_S1x2000x128_S2000x128 shapeCasts_S1x128x128_S128x128 bitsLt_bf16_f32 p c).trans ?_
  unfold relTerm
  refine Finset.sum_congr rfl fun k _ => ?_
  show x1 (rAgg5.idx (ix3 (0 : Fin 1) p k)) * x2 (rRel5.idx (ix3 (0 : Fin 1) k c)) = _
  rw [agg5_idx, rel5_idx]
/-- Relation 6's product at `(p, c)`. -/
theorem rel6_apply (x1 : Vec Ideal S8x2000x128 .f32) (x2 : Vec Ideal S8x128x128 .f32) (p : Fin 2000) (c : Fin 128) :
    matmul dot_S2000x128_S128x128_S2000x128_1_0_0_1_n_n none
        (truncf .bf16 (shapeCast S2000x128 (View.ld x1 rAgg6) shapeCasts_S1x2000x128_S2000x128) bitsLt_bf16_f32)
        (truncf .bf16 (shapeCast S128x128 (View.ld x2 rRel6) shapeCasts_S1x128x128_S128x128) bitsLt_bf16_f32)
        (constant (F := Ideal) S2000x128 .f32 0x00000000#32) (ix2 p c)
      = relTerm (fun s r k => x1 (ix3 s r k)) (fun s k j => x2 (ix3 s k j)) 6 p c := by
  refine (Cert.LibSliceProduct.sliceProduct_apply dot_S2000x128_S128x128_S2000x128_1_0_0_1_n_n rfl rfl rfl rfl rfl rfl none
    _ _ shapeCasts_S1x2000x128_S2000x128 shapeCasts_S1x128x128_S128x128 bitsLt_bf16_f32 p c).trans ?_
  unfold relTerm
  refine Finset.sum_congr rfl fun k _ => ?_
  show x1 (rAgg6.idx (ix3 (0 : Fin 1) p k)) * x2 (rRel6.idx (ix3 (0 : Fin 1) k c)) = _
  rw [agg6_idx, rel6_idx]
/-- Relation 7's product at `(p, c)`. -/
theorem rel7_apply (x1 : Vec Ideal S8x2000x128 .f32) (x2 : Vec Ideal S8x128x128 .f32) (p : Fin 2000) (c : Fin 128) :
    matmul dot_S2000x128_S128x128_S2000x128_1_0_0_1_n_n none
        (truncf .bf16 (shapeCast S2000x128 (View.ld x1 rAgg7) shapeCasts_S1x2000x128_S2000x128) bitsLt_bf16_f32)
        (truncf .bf16 (shapeCast S128x128 (View.ld x2 rRel7) shapeCasts_S1x128x128_S128x128) bitsLt_bf16_f32)
        (constant (F := Ideal) S2000x128 .f32 0x00000000#32) (ix2 p c)
      = relTerm (fun s r k => x1 (ix3 s r k)) (fun s k j => x2 (ix3 s k j)) 7 p c := by
  refine (Cert.LibSliceProduct.sliceProduct_apply dot_S2000x128_S128x128_S2000x128_1_0_0_1_n_n rfl rfl rfl rfl rfl rfl none
    _ _ shapeCasts_S1x2000x128_S2000x128 shapeCasts_S1x128x128_S128x128 bitsLt_bf16_f32 p c).trans ?_
  unfold relTerm
  refine Finset.sum_congr rfl fun k _ => ?_
  show x1 (rAgg7.idx (ix3 (0 : Fin 1) p k)) * x2 (rRel7.idx (ix3 (0 : Fin 1) k c)) = _
  rw [agg7_idx, rel7_idx]

/-! ## The whole value -/

/-- One addition of the chain: the sum of two arrays at an index, from each summand there. -/
theorem add_step (a b : FVec Ideal S2000x128 .f32) (i : S2000x128.Idx) (u v : EReal) (h1 : a i = u) (h2 : b i = v) :
    addf a b i = u + v := by
  rw [addf_apply, h1, h2]

/-- The body's value at `(p, c)` is the specification of the blocks. -/
theorem outValue_apply (x0 : Vec Ideal S2000x128 .f32) (x1 : Vec Ideal S8x2000x128 .f32) (x2 : Vec Ideal S8x128x128 .f32)
    (x3 : Vec Ideal S128x128 .f32) (x4 : Vec Ideal S1x128 .f32) (p : Fin 2000) (c : Fin 128) :
    outValue (F := Ideal) x0 x1 x2 x3 x4 (ix2 p c)
      = conv (fun r k => x0 (ix2 r k)) (fun k j => x3 (ix2 k j)) (fun j => x4 (ix2 (0 : Fin 1) j))
          (fun s r k => x1 (ix3 s r k)) (fun s k j => x2 (ix3 s k j)) p c := by
  unfold outValue k0_pay1 k0_pay5 k0_pay2 k0_pay3 k0_pay4 k0_pay6 k0_pay7 conv
  dsimp only
  exact add_step _ _ _ _ _ (add_step _ _ _ _ _ (add_step _ _ _ _ _ (add_step _ _ _ _ _ (add_step _ _ _ _ _
    (add_step _ _ _ _ _ (add_step _ _ _ _ _ (add_step _ _ _ _ _
      (skip_apply x0 x3 x4 p c) (rel0_apply x1 x2 p c)) (rel1_apply x1 x2 p c)) (rel2_apply x1 x2 p c)) (rel3_apply x1 x2 p c))
      (rel4_apply x1 x2 p c)) (rel5_apply x1 x2 p c)) (rel6_apply x1 x2 p c)) (rel7_apply x1 x2 p c)

end Cert.KernelIdeal.BodyValue

end
-- ==== Proof.Aggregates.lean ====
/-
  The aggregated features both programs build on the host, as functions of the arguments.

  Before any matrix product both programs run the same host operations on the node features `x0`, the edge weights
  `x1`, the source indices `x5` and the destination indices `x6`:

  * `deg`: the in-degree of every node, a scatter-add of ones at the destinations into zeros;
  * `invDeg`: `1 / max(deg, 1)` where `deg > 0`, and `0` elsewhere;
  * `gathered`: row `src e` of the node features for every edge `e` (a negative index wrapped by the node count);
  * `agg q`: for relation `q`, the gathered rows scaled edge by edge by row `q` of the edge weights, scatter-added
    at the destinations into zeros, and scaled node by node by `invDeg`.

  The scatter-add and the gather are never opened: the two programs are joined by the fact that they apply the same
  operations to the same arguments, so only the names are needed.
-/
import proofs.«113227_j52458730553706_1_alg».proof.KernelIdeal
import proofs.«113227_j52458730553706_1_alg».proof.Proof.Gen.KernelIdeal

noncomputable section

namespace Cert.KernelIdeal.Agg

open Idealize.ShloMosaic Cert.KernelIdeal
open Cert.KernelIdeal.Facts₀ Cert.KernelIdeal.Facts

variable {F : FTy → Type} [FloatOps F]

/-- The in-degree of every node. -/
def deg (x6 : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 x6)
    (broadcastInDim S1600000 ![] bcast_S_S1600000 (constant S_ .f32 0x3F800000#32))

/-- The reciprocal in-degree, zero at a node with no in-edge. -/
def invDeg (x6 : (⟨S1600000, .i32⟩ : BufTy).Contents (Elt F)) : (⟨S100000, .f32⟩ : BufTy).Contents (Elt F) :=
  select (cmpf (F := F) .ogt (deg x6) (broadcastInDim S100000 ![] bcast_S_S100000 (constant S_ .f32 0x00000000#32)))
    (Host.divf (broadcastInDim S100000 ![] bcast_S_S100000 (constant S_ .f32 0x3F800000#32))
      (maximumf (deg x6) (broadcastInDim S100000 ![] bcast_S_S100000 (constant S_ .f32 0x3F800000#32))))
    (broadcastInDim S100000 ![] bcast_S_S100000 (id (constant S_ .f32 0x00000000#32)))

/-- The source node's features, edge by edge. -/
def gathered (x0 : (⟨S100000x128, .f32⟩ : BufTy).Contents (Elt F)) (x5 : (⟨S1600000, .i32⟩ : BufTy).Contents (Elt F)) :
    (⟨S1600000x128, .f32⟩ : BufTy).Contents (Elt F) :=
  Host.gather gather_S100000x128_S1600000x1_S1600000x128_1_0_n_n_0_1_1128 x0
    (broadcastInDim S1600000x1 ![0] bcast_S1600000_S1600000x1_0
      (select (cmpi .slt x5 (broadcastInDim S1600000 ![] bcast_S_S1600000 (constantI S_ 32 0#32)))
        (addi x5 (broadcastInDim S1600000 ![] bcast_S_S1600000 (constantI S_ 32 100000#32))) x5))

/-- The messages `msg` summed at their destinations and scaled by the reciprocal in-degree. -/
def meanAt (x6 : (⟨S1600000, .i32⟩ : BufTy).Contents (Elt F)) (msg : (⟨S1600000x128, .f32⟩ : BufTy).Contents (Elt F)) :
    (⟨S100000x128, .f32⟩ : BufTy).Contents (Elt F) :=
  mulf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 x6) msg)
    (broadcastInDim S100000x128 ![0, 1] bcast_S100000x1_S100000x128_0_1
      (broadcastInDim S100000x1 ![0] bcast_S100000_S100000x1_0 (invDeg x6)))

/-- One row of the edge weights, spread over the 128 feature columns. -/
def spread (w : (⟨S1x1600000, .f32⟩ : BufTy).Contents (Elt F)) : (⟨S1600000x128, .f32⟩ : BufTy).Contents (Elt F) :=
  broadcastInDim S1600000x128 ![0, 1] bcast_S1600000x1_S1600000x128_0_1
    (broadcastInDim S1600000x1 ![0] bcast_S1600000_S1600000x1_0 (shapeCast _ w shapeCasts_S1x1600000_S1600000))

variable (x0 : (⟨S100000x128, .f32⟩ : BufTy).Contents (Elt F)) (x1 : (⟨S8x1600000, .f32⟩ : BufTy).Contents (Elt F))
  (x5 x6 : (⟨S1600000, .i32⟩ : BufTy).Contents (Elt F))

/-- Relation 0's aggregated features. -/
def agg0 : (⟨S100000x128, .f32⟩ : BufTy).Contents (Elt F) :=
  meanAt x6 (mulf (gathered x0 x5) (spread (extractStridedSlice S1x1600000 ![0, 0] x1 slices_S8x1600000_S1x1600000_0_0)))
/-- Relation 1's aggregated features. -/
def agg1 : (⟨S100000x128, .f32⟩ : BufTy).Contents (Elt F) :=
  meanAt x6 (mulf (gathered x0 x5) (spread (extractStridedSlice S1x1600000 ![1, 0] x1 slices_S8x1600000_S1x1600000_1_0)))
/-- Relation 2's aggregated features. -/
def agg2 : (⟨S100000x128, .f32⟩ : BufTy).Contents (Elt F) :=
  meanAt x6 (mulf (gathered x0 x5) (spread (extractStridedSlice S1x1600000 ![2, 0] x1 slices_S8x1600000_S1x1600000_2_0)))
/-- Relation 3's aggregated features. -/
def agg3 : (⟨S100000x128, .f32⟩ : BufTy).Contents (Elt F) :=
  meanAt x6 (mulf (gathered x0 x5) (spread (extractStridedSlice S1x1600000 ![3, 0] x1 slices_S8x1600000_S1x1600000_3_0)))
/-- Relation 4's aggregated features. -/
def agg4 : (⟨S100000x128, .f32⟩ : BufTy).Contents (Elt F) :=
  meanAt x6 (mulf (gathered x0 x5) (spread (extractStridedSlice S1x1600000 ![4, 0] x1 slices_S8x1600000_S1x1600000_4_0)))
/-- Relation 5's aggregated features. -/
def agg5 : (⟨S100000x128, .f32⟩ : BufTy).Contents (Elt F) :=
  meanAt x6 (mulf (gathered x0 x5) (spread (extractStridedSlice S1x1600000 ![5, 0] x1 slices_S8x1600000_S1x1600000_5_0)))
/-- Relation 6's aggregated features. -/
def agg6 : (⟨S100000x128, .f32⟩ : BufTy).Contents (Elt F) :=
  meanAt x6 (mulf (gathered x0 x5) (spread (extractStridedSlice S1x1600000 ![6, 0] x1 slices_S8x1600000_S1x1600000_6_0)))
/-- Relation 7's aggregated features. -/
def agg7 : (⟨S100000x128, .f32⟩ : BufTy).Contents (Elt F) :=
  meanAt x6 (mulf (gathered x0 x5) (spread (extractStridedSlice S1x1600000 ![7, 0] x1 slices_S8x1600000_S1x1600000_7_0)))

/-- The eight aggregated arrays, by relation. -/
def aggOf (q : Fin 8) : (⟨S100000x128, .f32⟩ : BufTy).Contents (Elt F) :=
  match q with
  | ⟨0, _⟩ => agg0 x0 x1 x5 x6
  | ⟨1, _⟩ => agg1 x0 x1 x5 x6
  | ⟨2, _⟩ => agg2 x0 x1 x5 x6
  | ⟨3, _⟩ => agg3 x0 x1 x5 x6
  | ⟨4, _⟩ => agg4 x0 x1 x5 x6
  | ⟨5, _⟩ => agg5 x0 x1 x5 x6
  | ⟨6, _⟩ => agg6 x0 x1 x5 x6
  | ⟨7, _⟩ => agg7 x0 x1 x5 x6

end Cert.KernelIdeal.Agg

end
-- ==== Proof.LibStack.lean ====
/-
  Eight arrays stacked along a new leading axis, read at an entry.

  `jnp.stack` of eight `[N, D]` arrays lowers to: each array broadcast to `[1, N, D]` (its axes sent to axes 1 and 2),
  then the eight concatenated along axis 0 into `[8, N, D]`. At `(q, n, k)` the result holds array `q` at `(n, k)`:
  piece `q` of the concatenation starts at leading offset `q` because each earlier piece has leading extent one, and
  the broadcast ignores the unit axis. Stated for any extents `N`, `D` and any element type.
-/
import Idealize.ShloMosaic.Lib.Pipeline.Value
import Idealize.ShloMosaic.Lib.ValueIdx

noncomputable section

namespace Cert.LibStack

open Idealize.ShloMosaic Idealize.ShloMosaic.ValueIdx

variable {N D : Nat} {α : Type}

/-- Two concatenations of eight pieces of one shape agree when the pieces agree one by one. -/
theorem concat8_congr {t s : Shape} {β : Type} (a : Fin t.rank)
    (x0 x1 x2 x3 x4 x5 x6 x7 y0 y1 y2 y3 y4 y5 y6 y7 : s.Idx → β)
    (h : Shape.Concatenates (([⟨s, x0⟩, ⟨s, x1⟩, ⟨s, x2⟩, ⟨s, x3⟩, ⟨s, x4⟩, ⟨s, x5⟩, ⟨s, x6⟩, ⟨s, x7⟩] : List ((s : Shape) × (s.Idx → β))).map (·.1)) t a)
    (e0 : x0 = y0) (e1 : x1 = y1) (e2 : x2 = y2) (e3 : x3 = y3) (e4 : x4 = y4) (e5 : x5 = y5) (e6 : x6 = y6) (e7 : x7 = y7) :
    concatenate t a [⟨s, x0⟩, ⟨s, x1⟩, ⟨s, x2⟩, ⟨s, x3⟩, ⟨s, x4⟩, ⟨s, x5⟩, ⟨s, x6⟩, ⟨s, x7⟩] h = concatenate t a [⟨s, y0⟩, ⟨s, y1⟩, ⟨s, y2⟩, ⟨s, y3⟩, ⟨s, y4⟩, ⟨s, y5⟩, ⟨s, y6⟩, ⟨s, y7⟩] h := by
  subst e0 e1 e2 e3 e4 e5 e6 e7
  rfl

/-- An `[N, D]` array broadcast to `[1, N, D]` reads, at `(0, n, k)`, the array at `(n, k)`. -/
theorem lead_apply (x : (⟨2, ![N, D]⟩ : Shape).Idx → α)
    (h : (⟨2, ![N, D]⟩ : Shape).BroadcastsInDim ⟨3, ![1, N, D]⟩ (![1, 2] : Fin 2 → Fin 3)) (n : Fin N) (k : Fin D) :
    broadcastInDim ⟨3, ![1, N, D]⟩ (![1, 2] : Fin 2 → Fin 3) h x (ix3 (0 : Fin 1) n k) = x (ix2 n k) :=
  broadcastInDim_apply (![1, 2] : Fin 2 → Fin 3) h x (ix3 (0 : Fin 1) n k) (ix2 n k) (fun a => by
    match a with
    | ⟨0, _⟩ =>
      show n.val = if N = 1 then 0 else n.val
      split
      · have := n.isLt; omega
      · rfl
    | ⟨1, _⟩ =>
      show k.val = if D = 1 then 0 else k.val
      split
      · have := k.isLt; omega
      · rfl)

/-- The concatenation of eight `[1, N, D]` pieces along axis 0 reads, at `(q, n, k)`, piece `q` at `(0, n, k)`. -/
theorem concat8_apply (f : Fin 8 → ((⟨3, ![1, N, D]⟩ : Shape).Idx → α))
    (h : Shape.Concatenates [⟨3, ![1, N, D]⟩, ⟨3, ![1, N, D]⟩, ⟨3, ![1, N, D]⟩, ⟨3, ![1, N, D]⟩, ⟨3, ![1, N, D]⟩, ⟨3, ![1, N, D]⟩,
      ⟨3, ![1, N, D]⟩, ⟨3, ![1, N, D]⟩] ⟨3, ![8, N, D]⟩ (0 : Fin 3))
    (q : Fin 8) (n : Fin N) (k : Fin D) :
    concatenate ⟨3, ![8, N, D]⟩ (0 : Fin 3)
        [⟨⟨3, ![1, N, D]⟩, f 0⟩, ⟨⟨3, ![1, N, D]⟩, f 1⟩, ⟨⟨3, ![1, N, D]⟩, f 2⟩, ⟨⟨3, ![1, N, D]⟩, f 3⟩, ⟨⟨3, ![1, N, D]⟩, f 4⟩,
          ⟨⟨3, ![1, N, D]⟩, f 5⟩, ⟨⟨3, ![1, N, D]⟩, f 6⟩, ⟨⟨3, ![1, N, D]⟩, f 7⟩] h (ix3 q n k)
      = f q (ix3 (0 : Fin 1) n k) := by
  have hi : ∀ b : Fin 3, b.cast (rfl : (3 : Nat) = 3) ≠ (0 : Fin 3) →
      ((ix3 (0 : Fin 1) n k : (⟨3, ![1, N, D]⟩ : Shape).Idx) b).val = ((ix3 q n k : (⟨3, ![8, N, D]⟩ : Shape).Idx) (b.cast rfl)).val := by
    intro b hb
    match b with
    | ⟨0, _⟩ => exact absurd rfl hb
    | ⟨1, _⟩ => rfl
    | ⟨2, _⟩ => rfl
  match q with
  | ⟨0, _⟩ =>
    exact concatenate_apply_piece (t := ⟨3, ![8, N, D]⟩) (0 : Fin 3) [⟨⟨3, ![1, N, D]⟩, f 0⟩, ⟨⟨3, ![1, N, D]⟩, f 1⟩, ⟨⟨3, ![1, N, D]⟩, f 2⟩, ⟨⟨3, ![1, N, D]⟩, f 3⟩, ⟨⟨3, ![1, N, D]⟩, f 4⟩, ⟨⟨3, ![1, N, D]⟩, f 5⟩, ⟨⟨3, ![1, N, D]⟩, f 6⟩, ⟨⟨3, ![1, N, D]⟩, f 7⟩] h (ix3 (⟨0, by omega⟩ : Fin 8) n k) 0 (by show (0 : Nat) < 8; omega) ⟨3, ![1, N, D]⟩ (f 0) rfl rfl 0 (by rfl)
      (ix3 (0 : Fin 1) n k) hi (by rfl)
  | ⟨1, _⟩ =>
    exact concatenate_apply_piece (t := ⟨3, ![8, N, D]⟩) (0 : Fin 3) [⟨⟨3, ![1, N, D]⟩, f 0⟩, ⟨⟨3, ![1, N, D]⟩, f 1⟩, ⟨⟨3, ![1, N, D]⟩, f 2⟩, ⟨⟨3, ![1, N, D]⟩, f 3⟩, ⟨⟨3, ![1, N, D]⟩, f 4⟩, ⟨⟨3, ![1, N, D]⟩, f 5⟩, ⟨⟨3, ![1, N, D]⟩, f 6⟩, ⟨⟨3, ![1, N, D]⟩, f 7⟩] h (ix3 (⟨1, by omega⟩ : Fin 8) n k) 1 (by show (1 : Nat) < 8; omega) ⟨3, ![1, N, D]⟩ (f 1) rfl rfl 1 (by rfl)
      (ix3 (0 : Fin 1) n k) hi (by rfl)
  | ⟨2, _⟩ =>
    exact concatenate_apply_piece (t := ⟨3, ![8, N, D]⟩) (0 : Fin 3) [⟨⟨3, ![1, N, D]⟩, f 0⟩, ⟨⟨3, ![1, N, D]⟩, f 1⟩, ⟨⟨3, ![1, N, D]⟩, f 2⟩, ⟨⟨3, ![1, N, D]⟩, f 3⟩, ⟨⟨3, ![1, N, D]⟩, f 4⟩, ⟨⟨3, ![1, N, D]⟩, f 5⟩, ⟨⟨3, ![1, N, D]⟩, f 6⟩, ⟨⟨3, ![1, N, D]⟩, f 7⟩] h (ix3 (⟨2, by omega⟩ : Fin 8) n k) 2 (by show (2 : Nat) < 8; omega) ⟨3, ![1, N, D]⟩ (f 2) rfl rfl 2 (by rfl)
      (ix3 (0 : Fin 1) n k) hi (by rfl)
  | ⟨3, _⟩ =>
    exact concatenate_apply_piece (t := ⟨3, ![8, N, D]⟩) (0 : Fin 3) [⟨⟨3, ![1, N, D]⟩, f 0⟩, ⟨⟨3, ![1, N, D]⟩, f 1⟩, ⟨⟨3, ![1, N, D]⟩, f 2⟩, ⟨⟨3, ![1, N, D]⟩, f 3⟩, ⟨⟨3, ![1, N, D]⟩, f 4⟩, ⟨⟨3, ![1, N, D]⟩, f 5⟩, ⟨⟨3, ![1, N, D]⟩, f 6⟩, ⟨⟨3, ![1, N, D]⟩, f 7⟩] h (ix3 (⟨3, by omega⟩ : Fin 8) n k) 3 (by show (3 : Nat) < 8; omega) ⟨3, ![1, N, D]⟩ (f 3) rfl rfl 3 (by rfl)
      (ix3 (0 : Fin 1) n k) hi (by rfl)
  | ⟨4, _⟩ =>
    exact concatenate_apply_piece (t := ⟨3, ![8, N, D]⟩) (0 : Fin 3) [⟨⟨3, ![1, N, D]⟩, f 0⟩, ⟨⟨3, ![1, N, D]⟩, f 1⟩, ⟨⟨3, ![1, N, D]⟩, f 2⟩, ⟨⟨3, ![1, N, D]⟩, f 3⟩, ⟨⟨3, ![1, N, D]⟩, f 4⟩, ⟨⟨3, ![1, N, D]⟩, f 5⟩, ⟨⟨3, ![1, N, D]⟩, f 6⟩, ⟨⟨3, ![1, N, D]⟩, f 7⟩] h (ix3 (⟨4, by omega⟩ : Fin 8) n k) 4 (by show (4 : Nat) < 8; omega) ⟨3, ![1, N, D]⟩ (f 4) rfl rfl 4 (by rfl)
      (ix3 (0 : Fin 1) n k) hi (by rfl)
  | ⟨5, _⟩ =>
    exact concatenate_apply_piece (t := ⟨3, ![8, N, D]⟩) (0 : Fin 3) [⟨⟨3, ![1, N, D]⟩, f 0⟩, ⟨⟨3, ![1, N, D]⟩, f 1⟩, ⟨⟨3, ![1, N, D]⟩, f 2⟩, ⟨⟨3, ![1, N, D]⟩, f 3⟩, ⟨⟨3, ![1, N, D]⟩, f 4⟩, ⟨⟨3, ![1, N, D]⟩, f 5⟩, ⟨⟨3, ![1, N, D]⟩, f 6⟩, ⟨⟨3, ![1, N, D]⟩, f 7⟩] h (ix3 (⟨5, by omega⟩ : Fin 8) n k) 5 (by show (5 : Nat) < 8; omega) ⟨3, ![1, N, D]⟩ (f 5) rfl rfl 5 (by rfl)
      (ix3 (0 : Fin 1) n k) hi (by rfl)
  | ⟨6, _⟩ =>
    exact concatenate_apply_piece (t := ⟨3, ![8, N, D]⟩) (0 : Fin 3) [⟨⟨3, ![1, N, D]⟩, f 0⟩, ⟨⟨3, ![1, N, D]⟩, f 1⟩, ⟨⟨3, ![1, N, D]⟩, f 2⟩, ⟨⟨3, ![1, N, D]⟩, f 3⟩, ⟨⟨3, ![1, N, D]⟩, f 4⟩, ⟨⟨3, ![1, N, D]⟩, f 5⟩, ⟨⟨3, ![1, N, D]⟩, f 6⟩, ⟨⟨3, ![1, N, D]⟩, f 7⟩] h (ix3 (⟨6, by omega⟩ : Fin 8) n k) 6 (by show (6 : Nat) < 8; omega) ⟨3, ![1, N, D]⟩ (f 6) rfl rfl 6 (by rfl)
      (ix3 (0 : Fin 1) n k) hi (by rfl)
  | ⟨7, _⟩ =>
    exact concatenate_apply_piece (t := ⟨3, ![8, N, D]⟩) (0 : Fin 3) [⟨⟨3, ![1, N, D]⟩, f 0⟩, ⟨⟨3, ![1, N, D]⟩, f 1⟩, ⟨⟨3, ![1, N, D]⟩, f 2⟩, ⟨⟨3, ![1, N, D]⟩, f 3⟩, ⟨⟨3, ![1, N, D]⟩, f 4⟩, ⟨⟨3, ![1, N, D]⟩, f 5⟩, ⟨⟨3, ![1, N, D]⟩, f 6⟩, ⟨⟨3, ![1, N, D]⟩, f 7⟩] h (ix3 (⟨7, by omega⟩ : Fin 8) n k) 7 (by show (7 : Nat) < 8; omega) ⟨3, ![1, N, D]⟩ (f 7) rfl rfl 7 (by rfl)
      (ix3 (0 : Fin 1) n k) hi (by rfl)

/-- The stack of eight `[N, D]` arrays reads, at `(q, n, k)`, array `q` at `(n, k)`. -/
theorem stack8_apply (A : Fin 8 → ((⟨2, ![N, D]⟩ : Shape).Idx → α))
    (hb : (⟨2, ![N, D]⟩ : Shape).BroadcastsInDim ⟨3, ![1, N, D]⟩ (![1, 2] : Fin 2 → Fin 3))
    (h : Shape.Concatenates [⟨3, ![1, N, D]⟩, ⟨3, ![1, N, D]⟩, ⟨3, ![1, N, D]⟩, ⟨3, ![1, N, D]⟩, ⟨3, ![1, N, D]⟩, ⟨3, ![1, N, D]⟩,
      ⟨3, ![1, N, D]⟩, ⟨3, ![1, N, D]⟩] ⟨3, ![8, N, D]⟩ (0 : Fin 3))
    (q : Fin 8) (n : Fin N) (k : Fin D) :
    concatenate ⟨3, ![8, N, D]⟩ (0 : Fin 3)
        [⟨⟨3, ![1, N, D]⟩, broadcastInDim ⟨3, ![1, N, D]⟩ (![1, 2] : Fin 2 → Fin 3) hb (A 0)⟩,
          ⟨⟨3, ![1, N, D]⟩, broadcastInDim ⟨3, ![1, N, D]⟩ (![1, 2] : Fin 2 → Fin 3) hb (A 1)⟩,
          ⟨⟨3, ![1, N, D]⟩, broadcastInDim ⟨3, ![1, N, D]⟩ (![1, 2] : Fin 2 → Fin 3) hb (A 2)⟩,
          ⟨⟨3, ![1, N, D]⟩, broadcastInDim ⟨3, ![1, N, D]⟩ (![1, 2] : Fin 2 → Fin 3) hb (A 3)⟩,
          ⟨⟨3, ![1, N, D]⟩, broadcastInDim ⟨3, ![1, N, D]⟩ (![1, 2] : Fin 2 → Fin 3) hb (A 4)⟩,
          ⟨⟨3, ![1, N, D]⟩, broadcastInDim ⟨3, ![1, N, D]⟩ (![1, 2] : Fin 2 → Fin 3) hb (A 5)⟩,
          ⟨⟨3, ![1, N, D]⟩, broadcastInDim ⟨3, ![1, N, D]⟩ (![1, 2] : Fin 2 → Fin 3) hb (A 6)⟩,
          ⟨⟨3, ![1, N, D]⟩, broadcastInDim ⟨3, ![1, N, D]⟩ (![1, 2] : Fin 2 → Fin 3) hb (A 7)⟩] h (ix3 q n k)
      = A q (ix2 n k) := by
  rw [concat8_apply (fun q => broadcastInDim ⟨3, ![1, N, D]⟩ (![1, 2] : Fin 2 → Fin 3) hb (A q)) h q n k]
  exact lead_apply (A q) hb n k

end Cert.LibStack

end
-- ==== Proof.HostValue.lean ====
/-
  What the region finds in the two arrays the host operations prepare for it, at the ideal instance.

  The second operand of the region is the stack of the eight aggregated arrays: at `(q, n, k)` it holds relation
  `q`'s aggregated features at `(n, k)`. The fifth is the bias vector reshaped to one row: at `(0, j)` it holds the
  bias at `j`. Both are read off the host operations' results, composed down to the arguments.
-/
import proofs.«113227_j52458730553706_1_alg».proof.Proof.RegionIdeal
import proofs.«113227_j52458730553706_1_alg».proof.Proof.Aggregates
import proofs.«113227_j52458730553706_1_alg».proof.Proof.LibStack
import Idealize.ShloMosaic.Lib.ValueLayout

set_option maxRecDepth 16384

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen Cert.KernelIdeal.Region Cert.KernelIdeal.Agg

variable (m : (ℓ : Loc nD τ sig) → Buf (Elt Ideal) ℓ)

/-- One operand of the stack: the host operations' result for one relation, composed down to the arguments, is that
    relation's aggregated array with a leading unit axis. The scatter-add factor is the same term on both sides; in
    the reciprocal in-degree the operations of the outlined `where` carry their buffers' types along transports that
    are identities, removed one by one. -/
local macro "stack_operand" : tactic => `(tactic| (
  after_results_simp
  refine congrArg _ ?_
  first | unfold agg0 | unfold agg1 | unfold agg2 | unfold agg3 | unfold agg4 | unfold agg5 | unfold agg6 | unfold agg7
  unfold meanAt
  refine congrArg₂ _ ?_ ?_
  · rfl
  · refine congrArg _ ?_
    refine congrArg _ ?_
    refine (cast_eq (α := (⟨S100000, .f32⟩ : BufTy).Contents (Elt Ideal)) _ _).trans ?_
    unfold invDeg deg
    refine congr (congr (congrArg select ?_) ?_) ?_
    · exact (cast_eq (α := (⟨S100000, .i1⟩ : BufTy).Contents (Elt Ideal)) _ _).trans rfl
    · exact (cast_eq (α := (⟨S100000, .f32⟩ : BufTy).Contents (Elt Ideal)) _ _).trans rfl
    · refine (cast_eq (α := (⟨S100000, .f32⟩ : BufTy).Contents (Elt Ideal)) _ _).trans ?_
      refine (cast_eq (α := (⟨S100000, .f32⟩ : BufTy).Contents (Elt Ideal)) _ _).trans ?_
      refine congrArg _ ?_
      refine (cast_eq (α := (⟨S_, .f32⟩ : BufTy).Contents (Elt Ideal)) _ _).trans ?_
      refine (cast_eq (α := (⟨S_, .f32⟩ : BufTy).Contents (Elt Ideal)) _ _).trans ?_
      refine congrArg _ ?_
      exact cast_eq (α := (⟨S_, .f32⟩ : BufTy).Contents (Elt Ideal)) _ _))

set_option maxHeartbeats 40000000 in
/-- The stacked array is the concatenation of the eight aggregated arrays, each given a leading unit axis. -/
theorem stacked_eq (c : Dev nD) :
    (V m c main_v107 : S8x100000x128.Idx → EReal)
      = concatenate S8x100000x128 0
          [⟨S1x100000x128, broadcastInDim S1x100000x128 ![1, 2] bcast_S100000x128_S1x100000x128_1_2 (agg0 (F := Ideal) (m ((c : Thread nD τ).loc main_arg0)) (m ((c : Thread nD τ).loc main_arg1)) (m ((c : Thread nD τ).loc main_arg5)) (m ((c : Thread nD τ).loc main_arg6)))⟩,
            ⟨S1x100000x128, broadcastInDim S1x100000x128 ![1, 2] bcast_S100000x128_S1x100000x128_1_2 (agg1 (F := Ideal) (m ((c : Thread nD τ).loc main_arg0)) (m ((c : Thread nD τ).loc main_arg1)) (m ((c : Thread nD τ).loc main_arg5)) (m ((c : Thread nD τ).loc main_arg6)))⟩,
            ⟨S1x100000x128, broadcastInDim S1x100000x128 ![1, 2] bcast_S100000x128_S1x100000x128_1_2 (agg2 (F := Ideal) (m ((c : Thread nD τ).loc main_arg0)) (m ((c : Thread nD τ).loc main_arg1)) (m ((c : Thread nD τ).loc main_arg5)) (m ((c : Thread nD τ).loc main_arg6)))⟩,
            ⟨S1x100000x128, broadcastInDim S1x100000x128 ![1, 2] bcast_S100000x128_S1x100000x128_1_2 (agg3 (F := Ideal) (m ((c : Thread nD τ).loc main_arg0)) (m ((c : Thread nD τ).loc main_arg1)) (m ((c : Thread nD τ).loc main_arg5)) (m ((c : Thread nD τ).loc main_arg6)))⟩,
            ⟨S1x100000x128, broadcastInDim S1x100000x128 ![1, 2] bcast_S100000x128_S1x100000x128_1_2 (agg4 (F := Ideal) (m ((c : Thread nD τ).loc main_arg0)) (m ((c : Thread nD τ).loc main_arg1)) (m ((c : Thread nD τ).loc main_arg5)) (m ((c : Thread nD τ).loc main_arg6)))⟩,
            ⟨S1x100000x128, broadcastInDim S1x100000x128 ![1, 2] bcast_S100000x128_S1x100000x128_1_2 (agg5 (F := Ideal) (m ((c : Thread nD τ).loc main_arg0)) (m ((c : Thread nD τ).loc main_arg1)) (m ((c : Thread nD τ).loc main_arg5)) (m ((c : Thread nD τ).loc main_arg6)))⟩,
            ⟨S1x100000x128, broadcastInDim S1x100000x128 ![1, 2] bcast_S100000x128_S1x100000x128_1_2 (agg6 (F := Ideal) (m ((c : Thread nD τ).loc main_arg0)) (m ((c : Thread nD τ).loc main_arg1)) (m ((c : Thread nD τ).loc main_arg5)) (m ((c : Thread nD τ).loc main_arg6)))⟩,
            ⟨S1x100000x128, broadcastInDim S1x100000x128 ![1, 2] bcast_S100000x128_S1x100000x128_1_2 (agg7 (F := Ideal) (m ((c : Thread nD τ).loc main_arg0)) (m ((c : Thread nD τ).loc main_arg1)) (m ((c : Thread nD τ).loc main_arg5)) (m ((c : Thread nD τ).loc main_arg6)))⟩]
          concatenates_S1x100000x128_S1x100000x128_S1x100000x128_S1x100000x128_S1x100000x128_S1x100000x128_S1x100000x128_S1x100000x128_S8x100000x128_d0 := by
  dsimp only [V]
  simp only [hostOps0, hostOps0_1, hostOps0_2, List.flatten_cons, List.flatten_nil, List.append_nil, List.cons_append, List.nil_append]
  after_results_simp
  simp only [Matrix.cons_val]
  refine Cert.LibStack.concat8_congr (t := S8x100000x128) (s := S1x100000x128) (0 : Fin 3) _ _ _ _ _ _ _ _ _ _ _ _ _ _ _ _ _
    ?_ ?_ ?_ ?_ ?_ ?_ ?_ ?_
  all_goals stack_operand

/-- The stacked array at `(q, n, k)` is relation `q`'s aggregated features at `(n, k)`. -/
theorem stacked_apply (c : Dev nD) (q : Fin 8) (n : Fin 100000) (k : Fin 128) :
    (V m c main_v107 : S8x100000x128.Idx → EReal) (ix3 q n k) = aggOf (F := Ideal) (m ((c : Thread nD τ).loc main_arg0)) (m ((c : Thread nD τ).loc main_arg1)) (m ((c : Thread nD τ).loc main_arg5)) (m ((c : Thread nD τ).loc main_arg6)) q (ix2 n k) := by
  rw [stacked_eq]
  exact Cert.LibStack.stack8_apply (fun q => aggOf (F := Ideal) (m ((c : Thread nD τ).loc main_arg0)) (m ((c : Thread nD τ).loc main_arg1)) (m ((c : Thread nD τ).loc main_arg5)) (m ((c : Thread nD τ).loc main_arg6)) q) bcast_S100000x128_S1x100000x128_1_2 _ q n k

set_option maxHeartbeats 40000000 in
/-- The bias row is the bias vector reshaped. -/
theorem biasRow_eq (c : Dev nD) :
    (V m c main_v108 : S1x128.Idx → EReal) = shapeCast S1x128 (m ((c : Thread nD τ).loc main_arg4)) shapeCasts_S128_S1x128 := by
  dsimp only [V]
  simp only [hostOps0, hostOps0_1, hostOps0_2, List.flatten_cons, List.flatten_nil, List.append_nil, List.cons_append, List.nil_append]
  after_results_simp
  rfl

/-- The bias row at `(0, j)` is the bias at `j`. -/
theorem biasRow_apply (c : Dev nD) (j : Fin 128) :
    (V m c main_v108 : S1x128.Idx → EReal) (ix2 (0 : Fin 1) j) = m ((c : Thread nD τ).loc main_arg4) (ix1 j) := by
  rw [biasRow_eq]
  exact shapeCast_a_1a_apply _ shapeCasts_S128_S1x128 (0 : Fin 1) j

end Cert.KernelIdeal.HostValue

end
-- ==== Proof.KernelValue.lean ====
/-
  The idealized kernel's result array.

  Point `t` of the grid writes back the output block for rows `2000·t … 2000·t + 1999`. The node-feature block and the
  aggregate block at that point are the same rows of their arrays; the relation weights, the skip weight and the bias
  row are whole at every point. So what point `t` writes back is the specification's result restricted to its rows,
  and since the fifty blocks cover all 100000 rows, the result array after the run IS the specification's result of
  the arguments, with the eight aggregated arrays in the place of the stack.
-/
import proofs.«113227_j52458730553706_1_alg».proof.Proof.BodyValue
import proofs.«113227_j52458730553706_1_alg».proof.Proof.HostValue
import Idealize.ShloMosaic.Lib.Pipeline.Value

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Region Cert.KernelIdeal.Agg Cert.KernelIdeal.BodyValue
  Cert.KernelIdeal.HostValue Cert.RelConv

variable (m : (ℓ : Loc nD τ sig) → Buf (Elt Ideal) ℓ) (ρ : Dev nD → PrngReg)

/-- The result array as a function of the arguments: the specification's result, the aggregated arrays built from
    the node features, the edge weights and the two index arrays. -/
def G (c : Dev nD) : S100000x128.Idx → EReal :=
  result (m ((c : Thread nD τ).loc main_arg0)) (aggOf (F := Ideal) (m ((c : Thread nD τ).loc main_arg0)) (m ((c : Thread nD τ).loc main_arg1)) (m ((c : Thread nD τ).loc main_arg5)) (m ((c : Thread nD τ).loc main_arg6))) (m ((c : Thread nD τ).loc main_arg2)) (m ((c : Thread nD τ).loc main_arg3)) (m ((c : Thread nD τ).loc main_arg4))

theorem hz : (![0, 0] : Fin 2 → Nat) = fun _ => 0 := funext fun a => by fin_cases a <;> rfl

/-- The printed index maps over the grid: the node features, the aggregates and the output move one block of rows per
    point; the weights and the bias row stay. -/
theorem idx_facts : ∀ t : Fin cfg0.N, win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of point `t`'s blocks is row `2000·t + r` of the arrays. -/
def rowAt (t : Fin cfg0.N) (r : Fin 2000) : Fin 100000 :=
  ⟨t.val * 2000 + r.val, by have ht : t.val < 50 := lt_of_lt_of_eq t.isLt N_0; have := r.isLt; omega⟩

/-- What point `t` writes back is block `t` of the result. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after_5]
  unfold outBlock
  rw [View.canon_unit_zero hz]
  obtain ⟨e00, e01, e10, e11, e12, e20, e21, e22, e30, e31, e40, e41, e50, e51⟩ := idx_facts t
  have h0 : ∀ (r : Fin 2000) (k : Fin 128), iblk m c 0 t (ix2 r k) = (m ((c : Thread nD τ).loc main_arg0)) (ix2 (rowAt t r) k) := by
    intro r k
    show V m c main_arg0 (((cfg0.win 0).blk t).view.emb (ix2 r k)) = _
    rw [V_main_arg0]
    refine congrArg _ ?_
    funext a; apply Fin.ext
    match a with
    | ⟨0, _⟩ => show win0_0.index t (0 : Fin 2) * 2000 + 1 * r.val = t.val * 2000 + r.val; rw [e00]; omega
    | ⟨1, _⟩ => show win0_0.index t (1 : Fin 2) * 128 + 1 * k.val = k.val; rw [e01]; omega
  have h1 : ∀ (s : Fin 8) (r : Fin 2000) (k : Fin 128), iblk m c 1 t (ix3 s r k)
      = aggOf (F := Ideal) (m ((c : Thread nD τ).loc main_arg0)) (m ((c : Thread nD τ).loc main_arg1)) (m ((c : Thread nD τ).loc main_arg5)) (m ((c : Thread nD τ).loc main_arg6)) s (ix2 (rowAt t r) k) := by
    intro s r k
    show (V m c main_v107 : S8x100000x128.Idx → EReal) (((cfg0.win 1).blk t).view.emb (ix3 s r k)) = _
    rw [← stacked_apply m c s (rowAt t r) k]
    refine congrArg _ ?_
    funext a; apply Fin.ext
    match a with
    | ⟨0, _⟩ => show win0_1.index t (0 : Fin 3) * 8 + 1 * s.val = s.val; rw [e10]; omega
    | ⟨1, _⟩ => show win0_1.index t (1 : Fin 3) * 2000 + 1 * r.val = t.val * 2000 + r.val; rw [e11]; omega
    | ⟨2, _⟩ => show win0_1.index t (2 : Fin 3) * 128 + 1 * k.val = k.val; rw [e12]; omega
  have h2 : ∀ (s : Fin 8) (k : Fin 128) (j : Fin 128), iblk m c 2 t (ix3 s k j) = (m ((c : Thread nD τ).loc main_arg2)) (ix3 s k j) := by
    intro s k j
    show V m c main_arg2 (((cfg0.win 2).blk t).view.emb (ix3 s k j)) = _
    rw [V_main_arg2]
    refine congrArg _ ?_
    funext a; apply Fin.ext
    match a with
    | ⟨0, _⟩ => show win0_2.index t (0 : Fin 3) * 8 + 1 * s.val = s.val; rw [e20]; omega
    | ⟨1, _⟩ => show win0_2.index t (1 : Fin 3) * 128 + 1 * k.val = k.val; rw [e21]; omega
    | ⟨2, _⟩ => show win0_2.index t (2 : Fin 3) * 128 + 1 * j.val = j.val; rw [e22]; omega
  have h3 : ∀ (k : Fin 128) (j : Fin 128), iblk m c 3 t (ix2 k j) = (m ((c : Thread nD τ).loc main_arg3)) (ix2 k j) := by
    intro k j
    show V m c main_arg3 (((cfg0.win 3).blk t).view.emb (ix2 k j)) = _
    rw [V_main_arg3]
    refine congrArg _ ?_
    funext a; apply Fin.ext
    match a with
    | ⟨0, _⟩ => show win0_3.index t (0 : Fin 2) * 128 + 1 * k.val = k.val; rw [e30]; omega
    | ⟨1, _⟩ => show win0_3.index t (1 : Fin 2) * 128 + 1 * j.val = j.val; rw [e31]; omega
  have h4 : ∀ (j : Fin 128), iblk m c 4 t (ix2 (0 : Fin 1) j) = (m ((c : Thread nD τ).loc main_arg4)) (ix1 j) := by
    intro j
    show (V m c main_v108 : S1x128.Idx → EReal) (((cfg0.win 4).blk t).view.emb (ix2 (0 : Fin 1) j)) = _
    rw [← biasRow_apply m c j]
    refine congrArg _ ?_
    funext a; apply Fin.ext
    match a with
    | ⟨0, _⟩ => show win0_4.index t (0 : Fin 2) * 1 + 1 * 0 = 0; rw [e40]
    | ⟨1, _⟩ => show win0_4.index t (1 : Fin 2) * 128 + 1 * j.val = j.val; rw [e41]; omega
  funext y
  show outValue (F := Ideal) (iblk m c 0 t) (iblk m c 1 t) (iblk m c 2 t) (iblk m c 3 t) (iblk m c 4 t) y
      = G m c (((cfg0.win 5).blk t).view.emb y)
  obtain ⟨p, q, rfl⟩ : ∃ (p : Fin 2000) (q : Fin 128), y = ix2 p q := ⟨y 0, y 1, eq_ix2 y⟩
  have hy : ((cfg0.win 5).blk t).view.emb (ix2 p q) = ix2 (rowAt t p) q := by
    funext a; apply Fin.ext
    match a with
    | ⟨0, _⟩ => show win0_5.index t (0 : Fin 2) * 2000 + 1 * p.val = t.val * 2000 + p.val; rw [e50]; omega
    | ⟨1, _⟩ => show win0_5.index t (1 : Fin 2) * 128 + 1 * q.val = q.val; rw [e51]; omega
  refine (outValue_apply _ _ _ _ _ p q).trans ?_
  refine Eq.trans ?_ (congrArg (G m c) hy.symm)
  unfold G
  refine Eq.trans ?_ (result_apply _ _ _ _ _ (rowAt t p) q).symm
  simp only [h0, h1, h2, h3, h4]
  rfl

/-- An index of the result is in point `t`'s block iff each coordinate is in the block's range. -/
theorem mem_blk (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v109).slice (win0_5.rect t)).set ↔ _
  rw [View.set_slice_whole, Rect.mem_set_unit]
  exact Iff.rfl

/-- Every row is in the block of the point `row / 2000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  refine ⟨⟨(i 0).val / 2000, by omega⟩, flush0_5 _, ?_⟩
  obtain ⟨-, -, -, -, -, -, -, -, -, -, -, -, e50, e51⟩ := idx_facts ⟨(i 0).val / 2000, by omega⟩
  rw [mem_blk]
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e51]; omega

/-- The result array after the run. -/
theorem final (c : Dev nD) : (dats m 0 c).arrAt 5 cfg0.N = G m c :=
  (dats m 0 c).arrAt_eq_of_cover 5 (G m c) (fun t _ => flushed_eq m c t) (cover)

/-- The run of the idealized kernel: it terminates with the result array at `G` of the arguments, the arguments
    unchanged. -/
theorem run : θ_run defs (onTc (τ := τ) (main (F := Ideal))) ⟨m, fun _ => 0, ρ⟩ fun r => ∀ c : Dev nD,
      r.2.mem ((c.tc : Thread nD τ).loc main_v109) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.KernelValue

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«113227_j52458730553706_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«113227_j52458730553706_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibHostSliceProduct.lean ====
/-
  A host matrix product against one matrix of a stack, read at an entry, at the ideal instance.

  `x @ W[q]` on the host lowers to: the stack `W : [Q, K, N]` sliced at leading offset `q` with extent one, the
  `[1, K, N]` slice reshaped to `[K, N]`, and a plain `dot_general` of `x : [M, K]` with it. At `(n, j)` the result
  is `∑ k, x (n, k) · W (q, k, j)`. Stated for any plain dimension-number record and any extents.
-/
import proofs.«113227_j52458730553706_1_alg».proof.Proof.LibDotGeneralNN
import Idealize.ShloMosaic.Lib.Pipeline.Value
import Idealize.ShloMosaic.Lib.ValueLayout

noncomputable section

open scoped BigOperators

namespace Cert.LibHostSliceProduct

open Idealize.ShloMosaic Idealize.ShloMosaic.ValueIdx

variable {M K N Q : Nat} {φ₁ φ₂ : FTy}

/-- The slice at leading offset `o`, reshaped, at `(k, j)` is the stack at `(q, k, j)` when `q` is the offset. -/
theorem sliceCast_apply {α : Type} (W : (⟨3, ![Q, K, N]⟩ : Shape).Idx → α) (o : Nat) (q : Fin Q) (hq : q.val = o)
    (hs : (⟨3, ![Q, K, N]⟩ : Shape).Slices ![o, 0, 0] ⟨3, ![1, K, N]⟩)
    (hc : (⟨3, ![1, K, N]⟩ : Shape).ShapeCasts ⟨2, ![K, N]⟩) (k : Fin K) (j : Fin N) :
    shapeCast ⟨2, ![K, N]⟩ (extractStridedSlice ⟨3, ![1, K, N]⟩ ![o, 0, 0] W hs) hc (ix2 k j) = W (ix3 q k j) := by
  rw [shapeCast_1ab_ab_apply _ hc k j]
  exact extractStridedSlice_apply _ W hs (ix3 (0 : Fin 1) k j) (ix3 q k j) (fun a => by
    match a with
    | ⟨0, _⟩ => show q.val = o + 0; omega
    | ⟨1, _⟩ => exact (Nat.zero_add _).symm
    | ⟨2, _⟩ => exact (Nat.zero_add _).symm)

/-- The host product with matrix `q` of the stack, at `(n, j)`. -/
theorem hostSliceProduct_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨3, ![Q, K, N]⟩ φ₂) (o : Nat) (q : Fin Q) (hq : q.val = o)
    (hs : (⟨3, ![Q, K, N]⟩ : Shape).Slices ![o, 0, 0] ⟨3, ![1, K, N]⟩)
    (hc : (⟨3, ![1, K, N]⟩ : Shape).ShapeCasts ⟨2, ![K, N]⟩) (n : Fin M) (j : Fin N) :
    Host.dotGeneral d prec x (shapeCast ⟨2, ![K, N]⟩ (extractStridedSlice ⟨3, ![1, K, N]⟩ ![o, 0, 0] W hs) hc) (ix2 n j)
      = ∑ k : Fin K, x (ix2 n k) * W (ix3 q k j) := by
  simp only [Host.dotGeneral]
  rw [Cert.LibDotGeneralNN.dotGeneral_apply d hlc hrc hln hrn hlb hrb]
  refine Finset.sum_congr rfl fun k _ => ?_
  rw [sliceCast_apply W o q hq hs hc k j]

end Cert.LibHostSliceProduct

end
-- ==== Proof.RefValue.lean ====
/-
  The idealized reference's result array.

  The reference forms `node_feats @ skip_W + skip_b` and then adds, relation by relation in the order 0, …, 7, the
  product of the relation's aggregated features with its slice of the relation weights. Read at `(n, j)`: the first
  product plus the broadcast bias is `(∑ k, x (n, k) · W (k, j)) + b j`, and relation `q`'s product is
  `∑ k, A q (n, k) · R (q, k, j)`. The aggregated arrays are built by the same host operations, from the same
  arguments, as the idealized kernel's, so the reference's result is the specification's result of the arguments.
-/
import proofs.«113227_j52458730553706_1_alg».proof.Proof.RefRunPatched
import proofs.«113227_j52458730553706_1_alg».proof.Proof.Aggregates
import proofs.«113227_j52458730553706_1_alg».proof.Proof.RelConvSpec
import proofs.«113227_j52458730553706_1_alg».proof.Proof.LibHostAffine
import proofs.«113227_j52458730553706_1_alg».proof.Proof.LibHostSliceProduct

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.ValueP Cert.RelConv
open Cert.ReferenceIdeal.Facts₀ Cert.ReferenceIdeal.Facts

variable (m : (ℓ : Loc nD τ sig) → Buf (Elt Ideal) ℓ)

/-- One addition of the chain: the sum of two arrays at an index, from each summand there. -/
theorem add_step (a b : FVec Ideal S100000x128 .f32) (i : S100000x128.Idx) (u v : EReal) (h1 : a i = u) (h2 : b i = v) :
    addf a b i = u + v := by
  rw [addf_apply, h1, h2]

/-- The eight aggregated arrays of the reference's arguments. -/
abbrev aggs (c : Dev nD) : Fin 8 → (⟨2, ![100000, 128]⟩ : Shape).Idx → EReal :=
  Cert.KernelIdeal.Agg.aggOf (F := Ideal) (m ((c.tc : Thread nD τ).loc main_arg0)) (m ((c.tc : Thread nD τ).loc main_arg1)) (m ((c.tc : Thread nD τ).loc main_arg5)) (m ((c.tc : Thread nD τ).loc main_arg6))

/-- Relation 0's product at `(n, j)`. -/
theorem rel0_apply (c : Dev nD) (n : Fin 100000) (j : Fin 128) :
    Host.dotGeneral (F := Ideal) (φ₁ := .f32) (φ₂ := .f32) dot_S100000x128_S128x128_S100000x128_1_0_0_1_n_n none (aggs m c 0)
        (shapeCast _ (extractStridedSlice S1x128x128 ![0, 0, 0] (m ((c.tc : Thread nD τ).loc main_arg2)) slices_S8x128x128_S1x128x128_0_0_0)
          shapeCasts_S1x128x128_S128x128) (ix2 n j)
      = relTerm (fun q r k => aggs m c q (ix2 r k)) (fun q k j => (m ((c.tc : Thread nD τ).loc main_arg2)) (ix3 q k j)) 0 n j :=
  Cert.LibHostSliceProduct.hostSliceProduct_apply dot_S100000x128_S128x128_S100000x128_1_0_0_1_n_n rfl rfl rfl rfl rfl rfl none
    (aggs m c 0) (m ((c.tc : Thread nD τ).loc main_arg2)) 0 (0 : Fin 8) rfl slices_S8x128x128_S1x128x128_0_0_0 shapeCasts_S1x128x128_S128x128 n j
/-- Relation 1's product at `(n, j)`. -/
theorem rel1_apply (c : Dev nD) (n : Fin 100000) (j : Fin 128) :
    Host.dotGeneral (F := Ideal) (φ₁ := .f32) (φ₂ := .f32) dot_S100000x128_S128x128_S100000x128_1_0_0_1_n_n none (aggs m c 1)
        (shapeCast _ (extractStridedSlice S1x128x128 ![1, 0, 0] (m ((c.tc : Thread nD τ).loc main_arg2)) slices_S8x128x128_S1x128x128_1_0_0)
          shapeCasts_S1x128x128_S128x128) (ix2 n j)
      = relTerm (fun q r k => aggs m c q (ix2 r k)) (fun q k j => (m ((c.tc : Thread nD τ).loc main_arg2)) (ix3 q k j)) 1 n j :=
  Cert.LibHostSliceProduct.hostSliceProduct_apply dot_S100000x128_S128x128_S100000x128_1_0_0_1_n_n rfl rfl rfl rfl rfl rfl none
    (aggs m c 1) (m ((c.tc : Thread nD τ).loc main_arg2)) 1 (1 : Fin 8) rfl slices_S8x128x128_S1x128x128_1_0_0 shapeCasts_S1x128x128_S128x128 n j
/-- Relation 2's product at `(n, j)`. -/
theorem rel2_apply (c : Dev nD) (n : Fin 100000) (j : Fin 128) :
    Host.dotGeneral (F := Ideal) (φ₁ := .f32) (φ₂ := .f32) dot_S100000x128_S128x128_S100000x128_1_0_0_1_n_n none (aggs m c 2)
        (shapeCast _ (extractStridedSlice S1x128x128 ![2, 0, 0] (m ((c.tc : Thread nD τ).loc main_arg2)) slices_S8x128x128_S1x128x128_2_0_0)
          shapeCasts_S1x128x128_S128x128) (ix2 n j)
      = relTerm (fun q r k => aggs m c q (ix2 r k)) (fun q k j => (m ((c.tc : Thread nD τ).loc main_arg2)) (ix3 q k j)) 2 n j :=
  Cert.LibHostSliceProduct.hostSliceProduct_apply dot_S100000x128_S128x128_S100000x128_1_0_0_1_n_n rfl rfl rfl rfl rfl rfl none
    (aggs m c 2) (m ((c.tc : Thread nD τ).loc main_arg2)) 2 (2 : Fin 8) rfl slices_S8x128x128_S1x128x128_2_0_0 shapeCasts_S1x128x128_S128x128 n j
/-- Relation 3's product at `(n, j)`. -/
theorem rel3_apply (c : Dev nD) (n : Fin 100000) (j : Fin 128) :
    Host.dotGeneral (F := Ideal) (φ₁ := .f32) (φ₂ := .f32) dot_S100000x128_S128x128_S100000x128_1_0_0_1_n_n none (aggs m c 3)
        (shapeCast _ (extractStridedSlice S1x128x128 ![3, 0, 0] (m ((c.tc : Thread nD τ).loc main_arg2)) slices_S8x128x128_S1x128x128_3_0_0)
          shapeCasts_S1x128x128_S128x128) (ix2 n j)
      = relTerm (fun q r k => aggs m c q (ix2 r k)) (fun q k j => (m ((c.tc : Thread nD τ).loc main_arg2)) (ix3 q k j)) 3 n j :=
  Cert.LibHostSliceProduct.hostSliceProduct_apply dot_S100000x128_S128x128_S100000x128_1_0_0_1_n_n rfl rfl rfl rfl rfl rfl none
    (aggs m c 3) (m ((c.tc : Thread nD τ).loc main_arg2)) 3 (3 : Fin 8) rfl slices_S8x128x128_S1x128x128_3_0_0 shapeCasts_S1x128x128_S128x128 n j
/-- Relation 4's product at `(n, j)`. -/
theorem rel4_apply (c : Dev nD) (n : Fin 100000) (j : Fin 128) :
    Host.dotGeneral (F := Ideal) (φ₁ := .f32) (φ₂ := .f32) dot_S100000x128_S128x128_S100000x128_1_0_0_1_n_n none (aggs m c 4)
        (shapeCast _ (extractStridedSlice S1x128x128 ![4, 0, 0] (m ((c.tc : Thread nD τ).loc main_arg2)) slices_S8x128x128_S1x128x128_4_0_0)
          shapeCasts_S1x128x128_S128x128) (ix2 n j)
      = relTerm (fun q r k => aggs m c q (ix2 r k)) (fun q k j => (m ((c.tc : Thread nD τ).loc main_arg2)) (ix3 q k j)) 4 n j :=
  Cert.LibHostSliceProduct.hostSliceProduct_apply dot_S100000x128_S128x128_S100000x128_1_0_0_1_n_n rfl rfl rfl rfl rfl rfl none
    (aggs m c 4) (m ((c.tc : Thread nD τ).loc main_arg2)) 4 (4 : Fin 8) rfl slices_S8x128x128_S1x128x128_4_0_0 shapeCasts_S1x128x128_S128x128 n j
/-- Relation 5's product at `(n, j)`. -/
theorem rel5_apply (c : Dev nD) (n : Fin 100000) (j : Fin 128) :
    Host.dotGeneral (F := Ideal) (φ₁ := .f32) (φ₂ := .f32) dot_S100000x128_S128x128_S100000x128_1_0_0_1_n_n none (aggs m c 5)
        (shapeCast _ (extractStridedSlice S1x128x128 ![5, 0, 0] (m ((c.tc : Thread nD τ).loc main_arg2)) slices_S8x128x128_S1x128x128_5_0_0)
          shapeCasts_S1x128x128_S128x128) (ix2 n j)
      = relTerm (fun q r k => aggs m c q (ix2 r k)) (fun q k j => (m ((c.tc : Thread nD τ).loc main_arg2)) (ix3 q k j)) 5 n j :=
  Cert.LibHostSliceProduct.hostSliceProduct_apply dot_S100000x128_S128x128_S100000x128_1_0_0_1_n_n rfl rfl rfl rfl rfl rfl none
    (aggs m c 5) (m ((c.tc : Thread nD τ).loc main_arg2)) 5 (5 : Fin 8) rfl slices_S8x128x128_S1x128x128_5_0_0 shapeCasts_S1x128x128_S128x128 n j
/-- Relation 6's product at `(n, j)`. -/
theorem rel6_apply (c : Dev nD) (n : Fin 100000) (j : Fin 128) :
    Host.dotGeneral (F := Ideal) (φ₁ := .f32) (φ₂ := .f32) dot_S100000x128_S128x128_S100000x128_1_0_0_1_n_n none (aggs m c 6)
        (shapeCast _ (extractStridedSlice S1x128x128 ![6, 0, 0] (m ((c.tc : Thread nD τ).loc main_arg2)) slices_S8x128x128_S1x128x128_6_0_0)
          shapeCasts_S1x128x128_S128x128) (ix2 n j)
      = relTerm (fun q r k => aggs m c q (ix2 r k)) (fun q k j => (m ((c.tc : Thread nD τ).loc main_arg2)) (ix3 q k j)) 6 n j :=
  Cert.LibHostSliceProduct.hostSliceProduct_apply dot_S100000x128_S128x128_S100000x128_1_0_0_1_n_n rfl rfl rfl rfl rfl rfl none
    (aggs m c 6) (m ((c.tc : Thread nD τ).loc main_arg2)) 6 (6 : Fin 8) rfl slices_S8x128x128_S1x128x128_6_0_0 shapeCasts_S1x128x128_S128x128 n j
/-- Relation 7's product at `(n, j)`. -/
theorem rel7_apply (c : Dev nD) (n : Fin 100000) (j : Fin 128) :
    Host.dotGeneral (F := Ideal) (φ₁ := .f32) (φ₂ := .f32) dot_S100000x128_S128x128_S100000x128_1_0_0_1_n_n none (aggs m c 7)
        (shapeCast _ (extractStridedSlice S1x128x128 ![7, 0, 0] (m ((c.tc : Thread nD τ).loc main_arg2)) slices_S8x128x128_S1x128x128_7_0_0)
          shapeCasts_S1x128x128_S128x128) (ix2 n j)
      = relTerm (fun q r k => aggs m c q (ix2 r k)) (fun q k j => (m ((c.tc : Thread nD τ).loc main_arg2)) (ix3 q k j)) 7 n j :=
  Cert.LibHostSliceProduct.hostSliceProduct_apply dot_S100000x128_S128x128_S100000x128_1_0_0_1_n_n rfl rfl rfl rfl rfl rfl none
    (aggs m c 7) (m ((c.tc : Thread nD τ).loc main_arg2)) 7 (7 : Fin 8) rfl slices_S8x128x128_S1x128x128_7_0_0 shapeCasts_S1x128x128_S128x128 n j

/-- The skip connection at `(n, j)`. -/
theorem skip_apply (c : Dev nD) (n : Fin 100000) (j : Fin 128) :
    addf (Host.dotGeneral (F := Ideal) (φ₁ := .f32) (φ₂ := .f32) dot_S100000x128_S128x128_S100000x128_1_0_0_1_n_n none (m ((c.tc : Thread nD τ).loc main_arg0)) (m ((c.tc : Thread nD τ).loc main_arg3)))
        (broadcastInDim S100000x128 ![0, 1] bcast_S1x128_S100000x128_0_1 (broadcastInDim S1x128 ![1] bcast_S128_S1x128_1 (m ((c.tc : Thread nD τ).loc main_arg4))))
        (ix2 n j)
      = skipTerm (fun r k => (m ((c.tc : Thread nD τ).loc main_arg0)) (ix2 r k)) (fun k j => (m ((c.tc : Thread nD τ).loc main_arg3)) (ix2 k j)) (fun j => (m ((c.tc : Thread nD τ).loc main_arg4)) (ix1 j)) n j :=
  Cert.LibHostAffine.affine_apply dot_S100000x128_S128x128_S100000x128_1_0_0_1_n_n rfl rfl rfl rfl rfl rfl none
    (m ((c.tc : Thread nD τ).loc main_arg0)) (m ((c.tc : Thread nD τ).loc main_arg3)) (m ((c.tc : Thread nD τ).loc main_arg4)) bcast_S128_S1x128_1 bcast_S1x128_S100000x128_0_1 n j

set_option maxHeartbeats 4000000 in
/-- The reference's result is the specification's result of its arguments. -/
theorem result_eq (c : Dev nD) :
    res_main_v134 (F := Ideal) m c = result (m ((c.tc : Thread nD τ).loc main_arg0)) (aggs m c) (m ((c.tc : Thread nD τ).loc main_arg2)) (m ((c.tc : Thread nD τ).loc main_arg3)) (m ((c.tc : Thread nD τ).loc main_arg4)) := by
  funext i
  obtain ⟨n, j, rfl⟩ : ∃ (n : Fin 100000) (j : Fin 128), i = ix2 n j := ⟨i 0, i 1, eq_ix2 i⟩
  refine Eq.trans ?_ (result_apply _ _ _ _ _ n j).symm
  unfold res_main_v134 conv
  exact add_step _ _ _ _ _ (add_step _ _ _ _ _ (add_step _ _ _ _ _ (add_step _ _ _ _ _ (add_step _ _ _ _ _
    (add_step _ _ _ _ _ (add_step _ _ _ _ _ (add_step _ _ _ _ _
      (skip_apply m c n j) (rel0_apply m c n j)) (rel1_apply m c n j)) (rel2_apply m c n j))
      (rel3_apply m c n j)) (rel4_apply m c n j)) (rel5_apply m c n j)) (rel6_apply m c n j))
      (rel7_apply m c n j)

end Cert.ReferenceIdeal.RefValue

end
-- ==== Proof.lean ====
/-
  The relation-weighted graph convolution kernel against its reference, over the extended reals.

  Both programs first build, by the same host operations, the eight aggregated feature arrays (mean over in-edges of
  the source features scaled by the relation's edge weights). The kernel then stacks them and, fifty blocks of 2000
  rows at a time, computes `x @ skip_W + skip_b + ∑_q agg_q @ rel_W[q]` with the relations added in order; the
  reference computes the same expression on the whole arrays, in the same order. At the ideal instance the roundings
  to bf16 are the identity and every matrix product is the textbook sum, so the two result arrays are one function of
  the arguments, entry by entry (`Cert.RelConv.result`); no property of the extended reals beyond reading each side
  is used, and the precondition is never opened.

  The frames: each kernel program runs through its one pipelined region and leaves its arguments as launched; the
  reference's frame is its run with the result dropped. The idealization rewrote nothing.
-/
import proofs.«113227_j52458730553706_1_alg».proof.Defs
import proofs.«113227_j52458730553706_1_alg».proof.Proof.Gen.Kernel
import proofs.«113227_j52458730553706_1_alg».proof.Proof.Gen.KernelIdeal
import proofs.«113227_j52458730553706_1_alg».proof.Proof.Gen.ReferenceIdeal
import proofs.«113227_j52458730553706_1_alg».proof.Proof.Gen.Pre_finite_inputs
import proofs.«113227_j52458730553706_1_alg».proof.Proof.RegionBits
import proofs.«113227_j52458730553706_1_alg».proof.Proof.RegionIdeal
import proofs.«113227_j52458730553706_1_alg».proof.Proof.KernelValue
import proofs.«113227_j52458730553706_1_alg».proof.Proof.RefRunPatched
import proofs.«113227_j52458730553706_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Region.frame m ρ
theorem frame_ki : Cert.frame_KernelIdeal := fun m ρ _ => Cert.KernelIdeal.Region.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Run from memories that agree on the arguments, the two idealized programs end with one result array: the
    specification's result of the arguments. -/
theorem algebraic : Cert.algebraic_KernelIdeal_ReferenceIdeal := by
  intro m ρ m' ρ' _ hagree
  refine ⟨fun c => Cert.KernelIdeal.KernelValue.G m c, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq m' c]
  unfold Cert.KernelIdeal.KernelValue.G Cert.ReferenceIdeal.RefValue.aggs
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
